-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S64x64 : Shape := ⟨2, ![64, 64]⟩
abbrev S64 : Shape := ⟨1, ![64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S4096x64 .f32) (main_arg1 : FVec F S4096x4096 .f32) (main_arg2 : FVec F S64x64 .f32) (main_arg3 : FVec F S64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S4096x64 : Shape := ⟨2, ![4096, 64]⟩
abbrev S4096x4096 : Shape := ⟨2, ![4096, 4096]⟩
abbrev S64x64 : Shape := ⟨2, ![64, 64]⟩
abbrev S64 : Shape := ⟨1, ![64]⟩
abbrev S1x64 : Shape := ⟨2, ![1, 64]⟩
abbrev S512x512 : Shape := ⟨2, ![512, 512]⟩
abbrev S512x64 : Shape := ⟨2, ![512, 64]⟩

abbrev nBuf : Space → Nat
  | .hbm => 6
  | .vmem => 8
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S64x64, .f32⟩
  | .hbm, ⟨3, _⟩ => ⟨S64, .f32⟩
  | .hbm, ⟨4, _⟩ => ⟨S1x64, .f32⟩
  | .hbm, ⟨5, _⟩ => ⟨S4096x64, .f32⟩
  | .local _ .vmem, ⟨0, _⟩ => ⟨S4096x64, .f32⟩
  | .local _ .vmem, ⟨1, _⟩ => ⟨S512x512, .f32⟩
  | .local _ .vmem, ⟨2, _⟩ => ⟨S512x512, .f32⟩
  | .local _ .vmem, ⟨3, _⟩ => ⟨S64x64, .f32⟩
  | .local _ .vmem, ⟨4, _⟩ => ⟨S1x64, .f32⟩
  | .local _ .vmem, ⟨5, _⟩ => ⟨S512x64, .f32⟩
  | .local _ .vmem, ⟨6, _⟩ => ⟨S512x64, .f32⟩
  | .local _ .vmem, ⟨7, _⟩ => ⟨S4096x64, .bf16⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let arg1 : BitVec 32 := BitVec.ofNat 32 (i 1).val
  let c512_i32 : BitVec 32 := 512#32
  let v7 : BitVec 32 := Scalar.muli arg1 c512_i32
  let v8 : Index := Scalar.indexCast v7
  let c0_3 : Index := 0#32
  ![v8.toNat, 0]
def k0_cond2 (i : grid0.Coords) : BitVec 1 :=
  let arg1 : BitVec 32 := BitVec.ofNat 32 (i 1).val
  let c0_i32_4 : BitVec 32 := 0#32
  let v11 : BitVec 1 := Scalar.cmpi .eq arg1 c0_i32_4
  let v12 : BitVec 32 := Scalar.extui v11
  let c0_i32_5 : BitVec 32 := 0#32
  let v13 : BitVec 1 := Scalar.cmpi .ne v12 c0_i32_5
  v13

def k0_cond3 (i : grid0.Coords) : BitVec 1 :=
  let arg1 : BitVec 32 := BitVec.ofNat 32 (i 1).val
  let c0_i32_6 : BitVec 32 := 0#32
  let v14 : BitVec 1 := Scalar.cmpi .ne arg1 c0_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S64_S1x64 : S64.ShapeCasts S1x64
  inb_S4096x64_S4096x64_0_0 : ∀ a, (![0, 0] : Fin 2 → Nat) a + S4096x64.size a ≤ S4096x64.size a
  h_S4096x64 : 0 < S4096x64.numel
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  shapeCasts_S4096x64_S4096x64 : S4096x64.ShapeCasts S4096x64
  packedbf16_S4096x64_S4096x64_0_0 : (Rect.unit (s := S4096x64) ![0, 0] S4096x64.size inb_S4096x64_S4096x64_0_0).PackedRows (EltTy.packing .bf16)
  inb_S512x512_S512x512_0_0 : ∀ a, (![0, 0] : Fin 2 → Nat) a + S512x512.size a ≤ S512x512.size a
  h_S512x512 : 0 < S512x512.numel
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  shapeCasts_S512x64_S512x64 : S512x64.ShapeCasts S512x64
  dot_S4096x64_S64x64_S4096x64_1_0_0_1_n_n_wf : DotDims.WF S4096x64 S64x64 S4096x64 [1] [0] [0] [1] [] []
  dot_S512x512_S512x64_S512x64_1_0_0_1_n_n_wf : DotDims.WF S512x512 S512x64 S512x64 [1] [0] [0] [1] [] []
  hrank0 : 0 < grid0.rank
  k0_off1_inb : ∀ i : grid0.Coords, ∀ a, (k0_off1 i) a + S512x64.size a ≤ S4096x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S4096x64.size a
  hwx0_0 : ∀ i : grid0.Coords, EltTy.bits .f32 = 32 ∨ (Rect.block (s := S4096x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S4096x64.size a
  hwx0_4 : ∀ i : grid0.Coords, EltTy.bits .f32 = 32 ∨ (Rect.block (s := S4096x64) S512x64.size (cc0_transform_4 i) (hinb0_4 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S4096x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) && !(k0_cond3 i == 1#1) | ⟨_ + 5, h⟩ => absurd h (Nat.not_lt.2 (Nat.le_add_left _ _))

class Facts : Prop extends Facts₀ where

variable [Facts]
-- ==== ReferenceIdeal.lean ====
abbrev S4096x64 : Shape := ⟨2, ![4096, 64]⟩
abbrev S4096x4096 : Shape := ⟨2, ![4096, 4096]⟩
abbrev S64x64 : Shape := ⟨2, ![64, 64]⟩
abbrev S64 : Shape := ⟨1, ![64]⟩
abbrev S1x64 : Shape := ⟨2, ![1, 64]⟩

abbrev nBuf : Space → Nat
  | .hbm => 9
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S64x64, .f32⟩
  | .hbm, ⟨3, _⟩ => ⟨S64, .f32⟩
  | .hbm, ⟨4, _⟩ => ⟨S4096x64, .f32⟩
  | .hbm, ⟨5, _⟩ => ⟨S4096x64, .f32⟩
  | .hbm, ⟨6, _⟩ => ⟨S1x64, .f32⟩
  | .hbm, ⟨7, _⟩ => ⟨S4096x64, .f32⟩
  | .hbm, ⟨8, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x64_S64x64_S4096x64_1_0_0_1_n_n_wf : DotDims.WF S4096x64 S64x64 S4096x64 [1] [0] [0] [1] [] []
  dot_S4096x4096_S4096x64_S4096x64_1_0_0_1_n_n_wf : DotDims.WF S4096x4096 S4096x64 S4096x64 [1] [0] [0] [1] [] []

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.KBCases.lean ====
/-
  The grid of the fused graph-convolution kernel has 8 x 8 points, point t = (t / 8, t % 8) = (row block, K block).
  Its body branches three times on the coordinates: the projection b @ w is stored into the scratch at the very
  first point only; the output block is STORED (partial product + bias row) where the K block is 0 and ACCUMULATED
  (what the block held + partial product) where it is not. So a point is in one of three cases:
    first : t = 0            (projection stored, output block stored),
    head  : t % 8 = 0, t ≠ 0 (output block stored),
    tail  : t % 8 ≠ 0        (output block accumulated).
  This module decides the three conditions over the grid in that closed form, records that no window is ever idle,
  names the memrefs the body is called with at a point, and restates the region invariant with the scratch buffer
  as an owned memref.
-/
import proofs.«145100_g88725434401306_cont_9to1_m_133_3_alg».proof.Proof.Gen.Kernel.Frame
import proofs.«145100_g88725434401306_cont_9to1_m_133_3_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, in closed form over the grid -/

/-- "row block 0 and K block 0": the condition under which the projection is computed and stored. -/
abbrev condProj (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- "K block 0": the output block is stored afresh. -/
abbrev condHead (i : grid0.Coords) : Prop := k0_cond2 i = 1#1
/-- "K block not 0": the output block is added to. -/
abbrev condTail (i : grid0.Coords) : Prop := k0_cond3 i = 1#1

theorem hcondProj : ∀ t : Fin cfg0.N, condProj (grid0.coords t) ↔ t.val = 0 :=
  (by decide +kernel : ∀ t : Fin grid0.N, condProj (grid0.coords t) ↔ t.val = 0)
theorem hcondHead : ∀ t : Fin cfg0.N, condHead (grid0.coords t) ↔ t.val % 8 = 0 :=
  (by decide +kernel : ∀ t : Fin grid0.N, condHead (grid0.coords t) ↔ t.val % 8 = 0)
theorem hcondTail : ∀ t : Fin cfg0.N, condTail (grid0.coords t) ↔ ¬ t.val % 8 = 0 :=
  (by decide +kernel : ∀ t : Fin grid0.N, condTail (grid0.coords t) ↔ ¬ t.val % 8 = 0)

/-! ## No window is idle anywhere: at every point exactly one of the two stores into the output block runs -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-! ## The memrefs the body is called with at a point -/

abbrev mB (t : Fin cfg0.N) : Memref sig .tc .vmem S4096x64 .f32 := win0_0.stage (cfg0.slots t 0)
abbrev hB (t : Fin cfg0.N) : (mB t).IsWhole := hstage0_0 ((cfg0.slots t 0).cast nbuf0_0)
abbrev mAdj (t : Fin cfg0.N) : Memref sig .tc .vmem S512x512 .f32 := win0_1.stage (cfg0.slots t 1)
abbrev hAdj (t : Fin cfg0.N) : (mAdj t).IsWhole := hstage0_1 ((cfg0.slots t 1).cast nbuf0_1)
abbrev mW (t : Fin cfg0.N) : Memref sig .tc .vmem S64x64 .f32 := win0_2.stage (cfg0.slots t 2)
abbrev hW (t : Fin cfg0.N) : (mW t).IsWhole := hstage0_2 ((cfg0.slots t 2).cast nbuf0_2)
abbrev mBias (t : Fin cfg0.N) : Memref sig .tc .vmem S1x64 .f32 := win0_3.stage (cfg0.slots t 3)
abbrev hBias (t : Fin cfg0.N) : (mBias t).IsWhole := hstage0_3 ((cfg0.slots t 3).cast nbuf0_3)
abbrev mOut (t : Fin cfg0.N) : Memref sig .tc .vmem S512x64 .f32 := win0_4.stage (cfg0.slots t 4)
abbrev hOut (t : Fin cfg0.N) : (mOut t).IsWhole := hstage0_4 ((cfg0.slots t 4).cast nbuf0_4)
/-- The scratch that holds the projection: a whole scoped buffer of the kernel's own. -/
abbrev mSup : Memref sig .tc .vmem S4096x64 .bf16 := Memref.whole cc0_scratch0
/-- One staging buffer of the output window and the scratch, as views through which contents are stated. -/
abbrev vOut : View sig .tc .vmem S512x64 .f32 := (Memref.whole cc0_stg4_0 : Memref sig .tc .vmem S512x64 .f32).view
abbrev vSup : View sig .tc .vmem S4096x64 .bf16 := mSup.view

/-- The class's region invariant with the scratch as a memref owned at some contents. -/
theorem PhiA_eq (c : Dev nD) :
    (Pipeline.ΦA spec0 c : sProp 𝕄)
      = iprop(iprop((∃ d, owns (c : Thread nD τ) mSup fullShare d)) ∗ (∃ r, prngReg c r)) := by
  unfold Pipeline.ΦA; rw [scopedRest0_eq]; simp only [mSup, owns_whole]; try rfl

end Cert.Kernel.Body

end
-- ==== Proof.KBRunFirst.lean ====
/-
  The body at the first grid point (row block 0, K block 0). It loads the whole feature matrix and the weight
  matrix, stores their product into the scratch, then loads the adjacency block and the first 512 rows of the scratch
  it has just stored, and stores into the output block their product plus the bias row. What the two stores leave
  — the pieces of the output block and of the scratch — is found by running the body symbolically.
-/
import proofs.«145100_g88725434401306_cont_9to1_m_133_3_alg».proof.Proof.KBCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at the first point, on whole memrefs: the four input blocks at their contents, the output block and
    the scratch at anything; it ends with the inputs as they were and the output block and the scratch overwritten by
    the pieces found. -/
noncomputable def runFirst (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole)
    (hp : condProj i) (hh : condHead i) (ht : ¬condTail i)
    (x0 : Vec F S4096x64 .f32) (x1 : Vec F S512x512 .f32) (x2 : Vec F S64x64 .f32) (x3 : Vec F S1x64 .f32) :
    Σ' (LO : List (View.Piece (Elt F) S512x64 .f32)), { LS : List (View.Piece (Elt F) S4096x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    sl_exec (disch := first | exact hp | exact hh | exact ht)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    iexists _; iexact H7

end Cert.Kernel.Body

end
-- ==== Proof.KBRunHead.lean ====
/-
  The body at the first K block of a later row block. Nothing is stored into the scratch, which still holds the
  projection: the body loads the adjacency block and the first 512 rows of the scratch and stores into the output
  block their product plus the bias row.
-/
import proofs.«145100_g88725434401306_cont_9to1_m_133_3_alg».proof.Proof.KBCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at such a point, on whole memrefs: the four input blocks and the scratch at their contents, the
    output block at anything; it ends with the inputs and the scratch as they were and the output block overwritten by
    the pieces found. -/
noncomputable def runHead (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole)
    (hp : ¬condProj i) (hh : condHead i) (ht : ¬condTail i)
    (x0 : Vec F S4096x64 .f32) (x1 : Vec F S512x512 .f32) (x2 : Vec F S64x64 .f32) (x3 : Vec F S1x64 .f32) (xs : Vec F S4096x64 .bf16) :
    { LO : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ owns (c : Thread nD τ) arg7 fullShare xs) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg7.eq_unread hf7
    sl_exec (disch := first | exact hp | exact hh | exact ht)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    iexists _; isplitr; · ipureintro; exact harg7.read_unread _
    iexact H7

end Cert.Kernel.Body

end
-- ==== Proof.KBRunTail.lean ====
/-
  The body at a later K block. The scratch holds the projection and the output block what the point before left:
  the body loads the adjacency block, the 512 rows of the scratch that belong to this K block and the output block,
  and stores the output block plus the product back.
-/
import proofs.«145100_g88725434401306_cont_9to1_m_133_3_alg».proof.Proof.KBCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at such a point, on whole memrefs: the four input blocks, the scratch and the output block at their
    contents; it ends with the inputs and the scratch as they were and the output block overwritten by the pieces found. -/
noncomputable def runTail (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole)
    (hp : ¬condProj i) (hh : ¬condHead i) (ht : condTail i)
    (x0 : Vec F S4096x64 .f32) (x1 : Vec F S512x512 .f32) (x2 : Vec F S64x64 .f32) (x3 : Vec F S1x64 .f32) (xs : Vec F S4096x64 .bf16) (xo : Vec F S512x64 .f32) :
    { LO : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ owns (c : Thread nD τ) arg7 fullShare xs) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf6; obtain rfl := harg7.eq_unread hf7
    sl_exec (disch := first | exact hp | exact hh | exact ht)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    iexists _; isplitr; · ipureintro; exact harg7.read_unread _
    iexact H7

end Cert.Kernel.Body

end
-- ==== Proof.KBOuts.lean ====
/-
  What the output block's staging buffer and the scratch hold after the body at each grid point, by recursion on the
  point: at point 0 what the first-point run leaves; at a later point with K block 0 the scratch is what the point
  before left and the output block is what the head run leaves given that scratch; at the other points the output
  block is what the tail run leaves given the scratch and the output block of the point before. With these, the
  pipeline's proof data: every input window's buffer holds its block, the output window's buffer the first component,
  and the region invariant carries the scratch at the second component from point to point.
-/
import proofs.«145100_g88725434401306_cont_9to1_m_133_3_alg».proof.Proof.KBRunFirst
import proofs.«145100_g88725434401306_cont_9to1_m_133_3_alg».proof.Proof.KBRunHead
import proofs.«145100_g88725434401306_cont_9to1_m_133_3_alg».proof.Proof.KBRunTail

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back -/

/-- The output block after the first point: the found pieces read back. -/
def outFirst (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : condProj i) (hh : condHead i) (ht : ¬condTail i) (x0 : Vec F S4096x64 .f32) (x1 : Vec F S512x512 .f32) (x2 : Vec F S64x64 .f32) (x3 : Vec F S1x64 .f32) : Vec F S512x64 .f32 :=
  vOut.read (Elt F) (vOut.writes (Elt F) vOut.junk (runFirst c i arg2 harg2 arg3 harg3 arg4 harg4 arg5 harg5 arg6 harg6 arg7 harg7 hp hh ht x0 x1 x2 x3).1)
/-- The scratch after the first point. -/
def supFirst (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : condProj i) (hh : condHead i) (ht : ¬condTail i) (x0 : Vec F S4096x64 .f32) (x1 : Vec F S512x512 .f32) (x2 : Vec F S64x64 .f32) (x3 : Vec F S1x64 .f32) : Vec F S4096x64 .bf16 :=
  vSup.read (Elt F) (vSup.writes (Elt F) vSup.junk (runFirst c i arg2 harg2 arg3 harg3 arg4 harg4 arg5 harg5 arg6 harg6 arg7 harg7 hp hh ht x0 x1 x2 x3).2.1)
/-- The first point's one store into the output block covers it, -/
theorem coverOutFirst (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : condProj i) (hh : condHead i) (ht : ¬condTail i) (x0 : Vec F S4096x64 .f32) (x1 : Vec F S512x512 .f32) (x2 : Vec F S64x64 .f32) (x3 : Vec F S1x64 .f32) (y : S512x64.Idx) :
    ∃ pc ∈ (runFirst c i arg2 harg2 arg3 harg3 arg4 harg4 arg5 harg5 arg6 harg6 arg7 harg7 hp hh ht x0 x1 x2 x3).1, y ∈ pc.1.set :=
  View.cover_of_tiledL (runFirst c i arg2 harg2 arg3 harg3 arg4 harg4 arg5 harg5 arg6 harg6 arg7 harg7 hp hh ht x0 x1 x2 x3).1 S512x64.size (by sl_kernel_rfl) y
/-- and its one store into the scratch covers the scratch. -/
theorem coverSupFirst (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : condProj i) (hh : condHead i) (ht : ¬condTail i) (x0 : Vec F S4096x64 .f32) (x1 : Vec F S512x512 .f32) (x2 : Vec F S64x64 .f32) (x3 : Vec F S1x64 .f32) (y : S4096x64.Idx) :
    ∃ pc ∈ (runFirst c i arg2 harg2 arg3 harg3 arg4 harg4 arg5 harg5 arg6 harg6 arg7 harg7 hp hh ht x0 x1 x2 x3).2.1, y ∈ pc.1.set :=
  View.cover_of_tiledL (runFirst c i arg2 harg2 arg3 harg3 arg4 harg4 arg5 harg5 arg6 harg6 arg7 harg7 hp hh ht x0 x1 x2 x3).2.1 S4096x64.size (by sl_kernel_rfl) y

/-- The output block after a head point. -/
def outHead (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : ¬condProj i) (hh : condHead i) (ht : ¬condTail i) (x0 : Vec F S4096x64 .f32) (x1 : Vec F S512x512 .f32) (x2 : Vec F S64x64 .f32) (x3 : Vec F S1x64 .f32) (xs : Vec F S4096x64 .bf16) : Vec F S512x64 .f32 :=
  vOut.read (Elt F) (vOut.writes (Elt F) vOut.junk (runHead c i arg2 harg2 arg3 harg3 arg4 harg4 arg5 harg5 arg6 harg6 arg7 harg7 hp hh ht x0 x1 x2 x3 xs).1)
theorem coverOutHead (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : ¬condProj i) (hh : condHead i) (ht : ¬condTail i) (x0 : Vec F S4096x64 .f32) (x1 : Vec F S512x512 .f32) (x2 : Vec F S64x64 .f32) (x3 : Vec F S1x64 .f32) (xs : Vec F S4096x64 .bf16) (y : S512x64.Idx) :
    ∃ pc ∈ (runHead c i arg2 harg2 arg3 harg3 arg4 harg4 arg5 harg5 arg6 harg6 arg7 harg7 hp hh ht x0 x1 x2 x3 xs).1, y ∈ pc.1.set :=
  View.cover_of_tiledL (runHead c i arg2 harg2 arg3 harg3 arg4 harg4 arg5 harg5 arg6 harg6 arg7 harg7 hp hh ht x0 x1 x2 x3 xs).1 S512x64.size (by sl_kernel_rfl) y

/-- The output block after a tail point. -/
def outTail (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : ¬condProj i) (hh : ¬condHead i) (ht : condTail i) (x0 : Vec F S4096x64 .f32) (x1 : Vec F S512x512 .f32) (x2 : Vec F S64x64 .f32) (x3 : Vec F S1x64 .f32) (xs : Vec F S4096x64 .bf16) (xo : Vec F S512x64 .f32) : Vec F S512x64 .f32 :=
  vOut.read (Elt F) (vOut.writes (Elt F) vOut.junk (runTail c i arg2 harg2 arg3 harg3 arg4 harg4 arg5 harg5 arg6 harg6 arg7 harg7 hp hh ht x0 x1 x2 x3 xs xo).1)
theorem coverOutTail (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : ¬condProj i) (hh : ¬condHead i) (ht : condTail i) (x0 : Vec F S4096x64 .f32) (x1 : Vec F S512x512 .f32) (x2 : Vec F S64x64 .f32) (x3 : Vec F S1x64 .f32) (xs : Vec F S4096x64 .bf16) (xo : Vec F S512x64 .f32) (y : S512x64.Idx) :
    ∃ pc ∈ (runTail c i arg2 harg2 arg3 harg3 arg4 harg4 arg5 harg5 arg6 harg6 arg7 harg7 hp hh ht x0 x1 x2 x3 xs xo).1, y ∈ pc.1.set :=
  View.cover_of_tiledL (runTail c i arg2 harg2 arg3 harg3 arg4 harg4 arg5 harg5 arg6 harg6 arg7 harg7 hp hh ht x0 x1 x2 x3 xs xo).1 S512x64.size (by sl_kernel_rfl) y

/-! ## Point by point -/

/-- After the body at position `n`: (the output block's staging buffer, the scratch). -/
def outsAt (c : Dev nD) : (n : ℕ) → n < cfg0.N → Vec F S512x64 .f32 × Vec F S4096x64 .bf16
  | 0, hn =>
    (outFirst c (grid0.coords ⟨0, hn⟩) (mB ⟨0, hn⟩) (hB ⟨0, hn⟩) (mAdj ⟨0, hn⟩) (hAdj ⟨0, hn⟩) (mW ⟨0, hn⟩) (hW ⟨0, hn⟩) (mBias ⟨0, hn⟩) (hBias ⟨0, hn⟩) (mOut ⟨0, hn⟩) (hOut ⟨0, hn⟩) mSup (Memref.isWhole_whole _) ((hcondProj ⟨0, hn⟩).mpr rfl) ((hcondHead ⟨0, hn⟩).mpr (Nat.zero_mod _)) (fun h => (hcondTail ⟨0, hn⟩).mp h (Nat.zero_mod _)) (iblk m c 0 ⟨0, hn⟩) (iblk m c 1 ⟨0, hn⟩) (iblk m c 2 ⟨0, hn⟩) (iblk m c 3 ⟨0, hn⟩),
     supFirst c (grid0.coords ⟨0, hn⟩) (mB ⟨0, hn⟩) (hB ⟨0, hn⟩) (mAdj ⟨0, hn⟩) (hAdj ⟨0, hn⟩) (mW ⟨0, hn⟩) (hW ⟨0, hn⟩) (mBias ⟨0, hn⟩) (hBias ⟨0, hn⟩) (mOut ⟨0, hn⟩) (hOut ⟨0, hn⟩) mSup (Memref.isWhole_whole _) ((hcondProj ⟨0, hn⟩).mpr rfl) ((hcondHead ⟨0, hn⟩).mpr (Nat.zero_mod _)) (fun h => (hcondTail ⟨0, hn⟩).mp h (Nat.zero_mod _)) (iblk m c 0 ⟨0, hn⟩) (iblk m c 1 ⟨0, hn⟩) (iblk m c 2 ⟨0, hn⟩) (iblk m c 3 ⟨0, hn⟩))
  | n + 1, hn =>
    if h : (n + 1) % 8 = 0 then
      (outHead c (grid0.coords ⟨n + 1, hn⟩) (mB ⟨n + 1, hn⟩) (hB ⟨n + 1, hn⟩) (mAdj ⟨n + 1, hn⟩) (hAdj ⟨n + 1, hn⟩) (mW ⟨n + 1, hn⟩) (hW ⟨n + 1, hn⟩) (mBias ⟨n + 1, hn⟩) (hBias ⟨n + 1, hn⟩) (mOut ⟨n + 1, hn⟩) (hOut ⟨n + 1, hn⟩) mSup (Memref.isWhole_whole _) (fun h' => Nat.succ_ne_zero n ((hcondProj ⟨n + 1, hn⟩).mp h')) ((hcondHead ⟨n + 1, hn⟩).mpr h) (fun h' => (hcondTail ⟨n + 1, hn⟩).mp h' h) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
       (outsAt c n (Nat.lt_of_succ_lt hn)).2)
    else
      (outTail c (grid0.coords ⟨n + 1, hn⟩) (mB ⟨n + 1, hn⟩) (hB ⟨n + 1, hn⟩) (mAdj ⟨n + 1, hn⟩) (hAdj ⟨n + 1, hn⟩) (mW ⟨n + 1, hn⟩) (hW ⟨n + 1, hn⟩) (mBias ⟨n + 1, hn⟩) (hBias ⟨n + 1, hn⟩) (mOut ⟨n + 1, hn⟩) (hOut ⟨n + 1, hn⟩) mSup (Memref.isWhole_whole _) (fun h' => Nat.succ_ne_zero n ((hcondProj ⟨n + 1, hn⟩).mp h')) (fun h' => h ((hcondHead ⟨n + 1, hn⟩).mp h')) ((hcondTail ⟨n + 1, hn⟩).mpr h) (iblk m c 0 ⟨n + 1, hn⟩) (iblk m c 1 ⟨n + 1, hn⟩) (iblk m c 2 ⟨n + 1, hn⟩) (iblk m c 3 ⟨n + 1, hn⟩) (outsAt c n (Nat.lt_of_succ_lt hn)).2 (outsAt c n (Nat.lt_of_succ_lt hn)).1,
       (outsAt c n (Nat.lt_of_succ_lt hn)).2)

/-- `outsAt` at the first point. -/
theorem outsAt_first (c : Dev nD) (t : Fin cfg0.N) (h0 : t.val = 0) :
    outsAt m c t.val t.isLt =
      (outFirst c (grid0.coords t) (mB t) (hB t) (mAdj t) (hAdj t) (mW t) (hW t) (mBias t) (hBias t) (mOut t) (hOut t) mSup (Memref.isWhole_whole _) ((hcondProj t).mpr h0) ((hcondHead t).mpr (by rw [h0])) (fun h => (hcondTail t).mp h (by rw [h0])) (iblk m c 0 t) (iblk m c 1 t) (iblk m c 2 t) (iblk m c 3 t),
       supFirst c (grid0.coords t) (mB t) (hB t) (mAdj t) (hAdj t) (mW t) (hW t) (mBias t) (hBias t) (mOut t) (hOut t) mSup (Memref.isWhole_whole _) ((hcondProj t).mpr h0) ((hcondHead t).mpr (by rw [h0])) (fun h => (hcondTail t).mp h (by rw [h0])) (iblk m c 0 t) (iblk m c 1 t) (iblk m c 2 t) (iblk m c 3 t)) := by
  obtain ⟨n, hn⟩ := t
  cases n with
  | zero => rfl
  | succ n => exact absurd h0 (Nat.succ_ne_zero n)

/-- `outsAt` at a head point, over what the point before left. -/
theorem outsAt_head (c : Dev nD) (t : Fin cfg0.N) (h0 : ¬t.val = 0) (h8 : t.val % 8 = 0) :
    outsAt m c t.val t.isLt =
      (outHead c (grid0.coords t) (mB t) (hB t) (mAdj t) (hAdj t) (mW t) (hW t) (mBias t) (hBias t) (mOut t) (hOut t) mSup (Memref.isWhole_whole _) (fun h' => h0 ((hcondProj t).mp h')) ((hcondHead t).mpr h8) (fun h' => (hcondTail t).mp h' h8) (iblk m c 0 t) (iblk m c 1 t) (iblk m c 2 t) (iblk m c 3 t) (outsAt m c (t.val - 1) (Nat.lt_of_le_of_lt (Nat.sub_le _ _) t.isLt)).2,
       (outsAt m c (t.val - 1) (Nat.lt_of_le_of_lt (Nat.sub_le _ _) t.isLt)).2) := by
  obtain ⟨n, hn⟩ := t
  cases n with
  | zero => exact absurd rfl h0
  | succ n => exact (dif_pos h8).trans rfl

/-- `outsAt` at a tail point, over what the point before left. -/
theorem outsAt_tail (c : Dev nD) (t : Fin cfg0.N) (h8 : ¬t.val % 8 = 0) :
    outsAt m c t.val t.isLt =
      (outTail c (grid0.coords t) (mB t) (hB t) (mAdj t) (hAdj t) (mW t) (hW t) (mBias t) (hBias t) (mOut t) (hOut t) mSup (Memref.isWhole_whole _) (fun h' => h8 (by rw [(hcondProj t).mp h'])) (fun h' => h8 ((hcondHead t).mp h')) ((hcondTail t).mpr h8) (iblk m c 0 t) (iblk m c 1 t) (iblk m c 2 t) (iblk m c 3 t) (outsAt m c (t.val - 1) (Nat.lt_of_le_of_lt (Nat.sub_le _ _) t.isLt)).2 (outsAt m c (t.val - 1) (Nat.lt_of_le_of_lt (Nat.sub_le _ _) t.isLt)).1,
       (outsAt m c (t.val - 1) (Nat.lt_of_le_of_lt (Nat.sub_le _ _) t.isLt)).2) := by
  obtain ⟨n, hn⟩ := t
  cases n with
  | zero => exact absurd (Nat.zero_mod _) h8
  | succ n => exact (dif_neg h8).trans rfl

/-! ## The region invariant, carrying the scratch -/

/-- Before position `n`: before the first point the class's invariant (the scratch at anything); afterwards the scratch
    at what the point before left in it, and the generator register at some state. -/
def PhiS (c : Dev nD) : (n : ℕ) → n ≤ cfg0.N → sProp 𝕄
  | 0, _ => Pipeline.ΦA spec0 c
  | n + 1, hn => iprop(iprop(owns (c : Thread nD τ) mSup fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) mSup fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) mSup fullShare ((outsAt m c (n - 1) (by omega)).2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The output window's buffer at a point whose K block is 0 is fresh (the first point, or the point after a write-back): anything. -/
theorem before4_head (c : Dev nD) (t : Fin cfg0.N) (h8 : t.val % 8 = 0) (d) : (dats m 0 c).before 4 t d = d := by
  refine (dats m 0 c).before_out_reset 4 rfl t ?_ d
  by_cases h0 : t.val = 0
  · exact .inl h0
  · refine .inr ⟨h0, (flush0_4 ⟨t.val - 1, Nat.lt_of_le_of_lt (Nat.sub_le _ _) t.isLt⟩).mpr ?_⟩
    show (t.val - 1) % 8 = 7
    omega

/-- At every coordinate one of the two stores into the output block runs (the K block is 0 or it is not). -/
theorem live4_all (i : grid0.Coords) : cfg0.idle 4 i = false := by
  have key : ∀ k : Fin 8, (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)) = false := by decide
  exact key (i 1)

/-- At the other points it holds what the point before left: the accumulator. -/
theorem before4_tail (c : Dev nD) (t : Fin cfg0.N) (h8 : ¬t.val % 8 = 0) (d) :
    (dats m 0 c).before 4 t d = (outsAt m c (t.val - 1) (Nat.lt_of_le_of_lt (Nat.sub_le _ _) t.isLt)).1 := by
  have h0 : t.val ≠ 0 := fun h => h8 (by rw [h])
  have hfl : (cfg0.win 4).flush ⟨t.val - 1, Nat.lt_of_le_of_lt (Nat.sub_le _ _) t.isLt⟩ = false := by
    rw [Bool.eq_false_iff]
    intro hf
    have := (flush0_4 ⟨t.val - 1, Nat.lt_of_le_of_lt (Nat.sub_le _ _) t.isLt⟩).mp hf
    have : (t.val - 1) % 8 = 7 := this
    omega
  rw [(dats m 0 c).before_out_kept 4 rfl t h0 hfl (live4_all) (fun _ _ => rfl) d, after4]

end Cert.Kernel.Body

end
-- ==== Proof.KBBody.lean ====
/-
  The body obligation of the pipeline, the run of the whole program, and its frame. At each point the closed forms say
  which of the three cases the point is in; the case's run applies to what the proof data say the buffers hold (every
  input window its block; the output block anything where the K block is 0 and what the point before left elsewhere;
  the scratch anything at the first point and what the point before left afterwards) and leaves what the proof data say
  the point leaves.
-/
import proofs.«145100_g88725434401306_cont_9to1_m_133_3_alg».proof.Proof.KBOuts

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mB t) fullShare ((dats m 0 c).before 0 t d))
    ∗ (∃ d, owns (c : Thread nD τ) (mAdj t) fullShare ((dats m 0 c).before 1 t d))
    ∗ (∃ d, owns (c : Thread nD τ) (mW t) fullShare ((dats m 0 c).before 2 t d))
    ∗ (∃ d, owns (c : Thread nD τ) (mBias t) fullShare ((dats m 0 c).before 3 t d))
    ∗ (∃ d, owns (c : Thread nD τ) (mOut t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (mB t) fullShare ((dats m 0 c).after 0 t) from by
    unfold Dat.leavesExact; rw [live0 t], after0]
  rw [show (dats m 0 c).leavesExact 1 t = owns (c : Thread nD τ) (mAdj t) fullShare ((dats m 0 c).after 1 t) from by
    unfold Dat.leavesExact; rw [live1 t], after1]
  rw [show (dats m 0 c).leavesExact 2 t = owns (c : Thread nD τ) (mW t) fullShare ((dats m 0 c).after 2 t) from by
    unfold Dat.leavesExact; rw [live2 t], after2]
  rw [show (dats m 0 c).leavesExact 3 t = owns (c : Thread nD τ) (mBias t) fullShare ((dats m 0 c).after 3 t) from by
    unfold Dat.leavesExact; rw [live3 t], after3]
  rw [show (dats m 0 c).leavesExact 4 t = owns (c : Thread nD τ) (mOut t) fullShare ((dats m 0 c).after 4 t) from by
    unfold Dat.leavesExact; rw [live4 t], after4]
  by_cases h8 : t.val % 8 = 0
  · by_cases h0 : t.val = 0
    · -- the first point
      rw [outsAt_first m c t h0]
      unfold outFirst supFirst; (try dsimp only)
      simp only [before4_head m c t h8]
      rw [PhiS_castSucc m c t, PhiS_zero m c _ _ h0, PhiA_eq]
      iintro ⟨⟨HS, Hg⟩, Ho, ⟨%d0, H0⟩, ⟨%d1, H1⟩, ⟨%d2, H2⟩, ⟨%d3, H3⟩, H4⟩
      iapply ((runFirst c (grid0.coords t) _ _ _ _ _ _ _ _ _ _ _ _ ((hcondProj t).mpr h0) ((hcondHead t).mpr h8) (fun h => (hcondTail t).mp h h8) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (coverSupFirst c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutFirst c _ _ _ _ _ _ _ _ _ _ _ _ _ _ _ _ _ _ _ _)
    · -- K block 0 of a later row block
      rw [outsAt_head m c t h0 h8]
      unfold outHead; (try dsimp only)
      simp only [before4_head m c t h8]
      rw [PhiS_castSucc m c t, PhiS_pos m c _ _ h0]
      iintro ⟨⟨HS, Hg⟩, Ho, ⟨%d0, H0⟩, ⟨%d1, H1⟩, ⟨%d2, H2⟩, ⟨%d3, H3⟩, H4⟩
      iapply ((runHead c (grid0.coords t) _ _ _ _ _ _ _ _ _ _ _ _ (fun h' => h0 ((hcondProj t).mp h')) ((hcondHead t).mpr h8) (fun h => (hcondTail t).mp h h8) (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, ⟨%e4, H4⟩, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutHead c _ _ _ _ _ _ _ _ _ _ _ _ _ _ _ _ _ _ _ _ _)
  · -- a later K block
    have h0 : t.val ≠ 0 := fun h => h8 (by rw [h])
    rw [outsAt_tail m c t h8]
    unfold outTail; (try dsimp only)
    simp only [before4_tail m c t h8]
    rw [PhiS_castSucc m c t, PhiS_pos m c _ _ h0]
    iintro ⟨⟨HS, Hg⟩, Ho, ⟨%d0, H0⟩, ⟨%d1, H1⟩, ⟨%d2, H2⟩, ⟨%d3, H3⟩, ⟨%d4, H4⟩⟩
    iapply ((runTail c (grid0.coords t) _ _ _ _ _ _ _ _ _ _ _ _ (fun h' => h0 ((hcondProj t).mp h')) (fun h' => h8 ((hcondHead t).mp h')) ((hcondTail t).mpr h8) (iblk m c 0 t) (iblk m c 1 t) (iblk m c 2 t) (iblk m c 3 t) _ _).2 Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, ⟨%e4, H4⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOutTail c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KICases.lean ====
/-
  The grid of the fused graph-convolution kernel has 8 x 8 points, point t = (t / 8, t % 8) = (row block, K block).
  Its body branches three times on the coordinates: the projection b @ w is stored into the scratch at the very
  first point only; the output block is STORED (partial product + bias row) where the K block is 0 and ACCUMULATED
  (what the block held + partial product) where it is not. So a point is in one of three cases:
    first : t = 0            (projection stored, output block stored),
    head  : t % 8 = 0, t ≠ 0 (output block stored),
    tail  : t % 8 ≠ 0        (output block accumulated).
  This module decides the three conditions over the grid in that closed form, records that no window is ever idle,
  names the memrefs the body is called with at a point, and restates the region invariant with the scratch buffer
  as an owned memref.
-/
import proofs.«145100_g88725434401306_cont_9to1_m_133_3_alg».proof.Proof.Gen.KernelIdeal.Frame
import proofs.«145100_g88725434401306_cont_9to1_m_133_3_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, in closed form over the grid -/

/-- "row block 0 and K block 0": the condition under which the projection is computed and stored. -/
abbrev condProj (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- "K block 0": the output block is stored afresh. -/
abbrev condHead (i : grid0.Coords) : Prop := k0_cond2 i = 1#1
/-- "K block not 0": the output block is added to. -/
abbrev condTail (i : grid0.Coords) : Prop := k0_cond3 i = 1#1

theorem hcondProj : ∀ t : Fin cfg0.N, condProj (grid0.coords t) ↔ t.val = 0 :=
  (by decide +kernel : ∀ t : Fin grid0.N, condProj (grid0.coords t) ↔ t.val = 0)
theorem hcondHead : ∀ t : Fin cfg0.N, condHead (grid0.coords t) ↔ t.val % 8 = 0 :=
  (by decide +kernel : ∀ t : Fin grid0.N, condHead (grid0.coords t) ↔ t.val % 8 = 0)
theorem hcondTail : ∀ t : Fin cfg0.N, condTail (grid0.coords t) ↔ ¬ t.val % 8 = 0 :=
  (by decide +kernel : ∀ t : Fin grid0.N, condTail (grid0.coords t) ↔ ¬ t.val % 8 = 0)

/-! ## No window is idle anywhere: at every point exactly one of the two stores into the output block runs -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-! ## The memrefs the body is called with at a point -/

abbrev mB (t : Fin cfg0.N) : Memref sig .tc .vmem S4096x64 .f32 := win0_0.stage (cfg0.slots t 0)
abbrev hB (t : Fin cfg0.N) : (mB t).IsWhole := hstage0_0 ((cfg0.slots t 0).cast nbuf0_0)
abbrev mAdj (t : Fin cfg0.N) : Memref sig .tc .vmem S512x512 .f32 := win0_1.stage (cfg0.slots t 1)
abbrev hAdj (t : Fin cfg0.N) : (mAdj t).IsWhole := hstage0_1 ((cfg0.slots t 1).cast nbuf0_1)
abbrev mW (t : Fin cfg0.N) : Memref sig .tc .vmem S64x64 .f32 := win0_2.stage (cfg0.slots t 2)
abbrev hW (t : Fin cfg0.N) : (mW t).IsWhole := hstage0_2 ((cfg0.slots t 2).cast nbuf0_2)
abbrev mBias (t : Fin cfg0.N) : Memref sig .tc .vmem S1x64 .f32 := win0_3.stage (cfg0.slots t 3)
abbrev hBias (t : Fin cfg0.N) : (mBias t).IsWhole := hstage0_3 ((cfg0.slots t 3).cast nbuf0_3)
abbrev mOut (t : Fin cfg0.N) : Memref sig .tc .vmem S512x64 .f32 := win0_4.stage (cfg0.slots t 4)
abbrev hOut (t : Fin cfg0.N) : (mOut t).IsWhole := hstage0_4 ((cfg0.slots t 4).cast nbuf0_4)
/-- The scratch that holds the projection: a whole scoped buffer of the kernel's own. -/
abbrev mSup : Memref sig .tc .vmem S4096x64 .bf16 := Memref.whole cc0_scratch0
/-- One staging buffer of the output window and the scratch, as views through which contents are stated. -/
abbrev vOut : View sig .tc .vmem S512x64 .f32 := (Memref.whole cc0_stg4_0 : Memref sig .tc .vmem S512x64 .f32).view
abbrev vSup : View sig .tc .vmem S4096x64 .bf16 := mSup.view

/-- The class's region invariant with the scratch as a memref owned at some contents. -/
theorem PhiA_eq (c : Dev nD) :
    (Pipeline.ΦA spec0 c : sProp 𝕄)
      = iprop(iprop((∃ d, owns (c : Thread nD τ) mSup fullShare d)) ∗ (∃ r, prngReg c r)) := by
  unfold Pipeline.ΦA; rw [scopedRest0_eq]; simp only [mSup, owns_whole]; try rfl

end Cert.KernelIdeal.Body

end
-- ==== Proof.KIRunFirst.lean ====
/-
  The body at the first grid point (row block 0, K block 0). It loads the whole feature matrix and the weight
  matrix, stores their product into the scratch, then loads the adjacency block and the first 512 rows of the scratch
  it has just stored, and stores into the output block their product plus the bias row. What the two stores leave
  — the pieces of the output block and of the scratch — is found by running the body symbolically.
-/
import proofs.«145100_g88725434401306_cont_9to1_m_133_3_alg».proof.Proof.KICases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at the first point, on whole memrefs: the four input blocks at their contents, the output block and
    the scratch at anything; it ends with the inputs as they were and the output block and the scratch overwritten by
    the pieces found. -/
noncomputable def runFirst (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole)
    (hp : condProj i) (hh : condHead i) (ht : ¬condTail i)
    (x0 : Vec F S4096x64 .f32) (x1 : Vec F S512x512 .f32) (x2 : Vec F S64x64 .f32) (x3 : Vec F S1x64 .f32) :
    Σ' (LO : List (View.Piece (Elt F) S512x64 .f32)), { LS : List (View.Piece (Elt F) S4096x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    sl_exec (disch := first | exact hp | exact hh | exact ht)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    iexists _; iexact H7

end Cert.KernelIdeal.Body

end
-- ==== Proof.KIRunHead.lean ====
/-
  The body at the first K block of a later row block. Nothing is stored into the scratch, which still holds the
  projection: the body loads the adjacency block and the first 512 rows of the scratch and stores into the output
  block their product plus the bias row.
-/
import proofs.«145100_g88725434401306_cont_9to1_m_133_3_alg».proof.Proof.KICases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at such a point, on whole memrefs: the four input blocks and the scratch at their contents, the
    output block at anything; it ends with the inputs and the scratch as they were and the output block overwritten by
    the pieces found. -/
noncomputable def runHead (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole)
    (hp : ¬condProj i) (hh : condHead i) (ht : ¬condTail i)
    (x0 : Vec F S4096x64 .f32) (x1 : Vec F S512x512 .f32) (x2 : Vec F S64x64 .f32) (x3 : Vec F S1x64 .f32) (xs : Vec F S4096x64 .bf16) :
    { LO : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ owns (c : Thread nD τ) arg7 fullShare xs) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg7.eq_unread hf7
    sl_exec (disch := first | exact hp | exact hh | exact ht)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    iexists _; isplitr; · ipureintro; exact harg7.read_unread _
    iexact H7

end Cert.KernelIdeal.Body

end
-- ==== Proof.KIRunTail.lean ====
/-
  The body at a later K block. The scratch holds the projection and the output block what the point before left:
  the body loads the adjacency block, the 512 rows of the scratch that belong to this K block and the output block,
  and stores the output block plus the product back.
-/
import proofs.«145100_g88725434401306_cont_9to1_m_133_3_alg».proof.Proof.KICases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at such a point, on whole memrefs: the four input blocks, the scratch and the output block at their
    contents; it ends with the inputs and the scratch as they were and the output block overwritten by the pieces found. -/
noncomputable def runTail (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole)
    (hp : ¬condProj i) (hh : ¬condHead i) (ht : condTail i)
    (x0 : Vec F S4096x64 .f32) (x1 : Vec F S512x512 .f32) (x2 : Vec F S64x64 .f32) (x3 : Vec F S1x64 .f32) (xs : Vec F S4096x64 .bf16) (xo : Vec F S512x64 .f32) :
    { LO : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ owns (c : Thread nD τ) arg7 fullShare xs) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf6; obtain rfl := harg7.eq_unread hf7
    sl_exec (disch := first | exact hp | exact hh | exact ht)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    iexists _; isplitr; · ipureintro; exact harg7.read_unread _
    iexact H7

end Cert.KernelIdeal.Body

end
-- ==== Proof.KIOuts.lean ====
/-
  What the output block's staging buffer and the scratch hold after the body at each grid point, by recursion on the
  point: at point 0 what the first-point run leaves; at a later point with K block 0 the scratch is what the point
  before left and the output block is what the head run leaves given that scratch; at the other points the output
  block is what the tail run leaves given the scratch and the output block of the point before. With these, the
  pipeline's proof data: every input window's buffer holds its block, the output window's buffer the first component,
  and the region invariant carries the scratch at the second component from point to point.
-/
import proofs.«145100_g88725434401306_cont_9to1_m_133_3_alg».proof.Proof.KIRunFirst
import proofs.«145100_g88725434401306_cont_9to1_m_133_3_alg».proof.Proof.KIRunHead
import proofs.«145100_g88725434401306_cont_9to1_m_133_3_alg».proof.Proof.KIRunTail

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back -/

/-- The output block after the first point: the found pieces read back. -/
def outFirst (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : condProj i) (hh : condHead i) (ht : ¬condTail i) (x0 : Vec F S4096x64 .f32) (x1 : Vec F S512x512 .f32) (x2 : Vec F S64x64 .f32) (x3 : Vec F S1x64 .f32) : Vec F S512x64 .f32 :=
  vOut.read (Elt F) (vOut.writes (Elt F) vOut.junk (runFirst c i arg2 harg2 arg3 harg3 arg4 harg4 arg5 harg5 arg6 harg6 arg7 harg7 hp hh ht x0 x1 x2 x3).1)
/-- The scratch after the first point. -/
def supFirst (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : condProj i) (hh : condHead i) (ht : ¬condTail i) (x0 : Vec F S4096x64 .f32) (x1 : Vec F S512x512 .f32) (x2 : Vec F S64x64 .f32) (x3 : Vec F S1x64 .f32) : Vec F S4096x64 .bf16 :=
  vSup.read (Elt F) (vSup.writes (Elt F) vSup.junk (runFirst c i arg2 harg2 arg3 harg3 arg4 harg4 arg5 harg5 arg6 harg6 arg7 harg7 hp hh ht x0 x1 x2 x3).2.1)
/-- The first point's one store into the output block covers it, -/
theorem coverOutFirst (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : condProj i) (hh : condHead i) (ht : ¬condTail i) (x0 : Vec F S4096x64 .f32) (x1 : Vec F S512x512 .f32) (x2 : Vec F S64x64 .f32) (x3 : Vec F S1x64 .f32) (y : S512x64.Idx) :
    ∃ pc ∈ (runFirst c i arg2 harg2 arg3 harg3 arg4 harg4 arg5 harg5 arg6 harg6 arg7 harg7 hp hh ht x0 x1 x2 x3).1, y ∈ pc.1.set :=
  View.cover_of_tiledL (runFirst c i arg2 harg2 arg3 harg3 arg4 harg4 arg5 harg5 arg6 harg6 arg7 harg7 hp hh ht x0 x1 x2 x3).1 S512x64.size (by sl_kernel_rfl) y
/-- and its one store into the scratch covers the scratch. -/
theorem coverSupFirst (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : condProj i) (hh : condHead i) (ht : ¬condTail i) (x0 : Vec F S4096x64 .f32) (x1 : Vec F S512x512 .f32) (x2 : Vec F S64x64 .f32) (x3 : Vec F S1x64 .f32) (y : S4096x64.Idx) :
    ∃ pc ∈ (runFirst c i arg2 harg2 arg3 harg3 arg4 harg4 arg5 harg5 arg6 harg6 arg7 harg7 hp hh ht x0 x1 x2 x3).2.1, y ∈ pc.1.set :=
  View.cover_of_tiledL (runFirst c i arg2 harg2 arg3 harg3 arg4 harg4 arg5 harg5 arg6 harg6 arg7 harg7 hp hh ht x0 x1 x2 x3).2.1 S4096x64.size (by sl_kernel_rfl) y

/-- The output block after a head point. -/
def outHead (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : ¬condProj i) (hh : condHead i) (ht : ¬condTail i) (x0 : Vec F S4096x64 .f32) (x1 : Vec F S512x512 .f32) (x2 : Vec F S64x64 .f32) (x3 : Vec F S1x64 .f32) (xs : Vec F S4096x64 .bf16) : Vec F S512x64 .f32 :=
  vOut.read (Elt F) (vOut.writes (Elt F) vOut.junk (runHead c i arg2 harg2 arg3 harg3 arg4 harg4 arg5 harg5 arg6 harg6 arg7 harg7 hp hh ht x0 x1 x2 x3 xs).1)
theorem coverOutHead (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : ¬condProj i) (hh : condHead i) (ht : ¬condTail i) (x0 : Vec F S4096x64 .f32) (x1 : Vec F S512x512 .f32) (x2 : Vec F S64x64 .f32) (x3 : Vec F S1x64 .f32) (xs : Vec F S4096x64 .bf16) (y : S512x64.Idx) :
    ∃ pc ∈ (runHead c i arg2 harg2 arg3 harg3 arg4 harg4 arg5 harg5 arg6 harg6 arg7 harg7 hp hh ht x0 x1 x2 x3 xs).1, y ∈ pc.1.set :=
  View.cover_of_tiledL (runHead c i arg2 harg2 arg3 harg3 arg4 harg4 arg5 harg5 arg6 harg6 arg7 harg7 hp hh ht x0 x1 x2 x3 xs).1 S512x64.size (by sl_kernel_rfl) y

/-- The output block after a tail point. -/
def outTail (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : ¬condProj i) (hh : ¬condHead i) (ht : condTail i) (x0 : Vec F S4096x64 .f32) (x1 : Vec F S512x512 .f32) (x2 : Vec F S64x64 .f32) (x3 : Vec F S1x64 .f32) (xs : Vec F S4096x64 .bf16) (xo : Vec F S512x64 .f32) : Vec F S512x64 .f32 :=
  vOut.read (Elt F) (vOut.writes (Elt F) vOut.junk (runTail c i arg2 harg2 arg3 harg3 arg4 harg4 arg5 harg5 arg6 harg6 arg7 harg7 hp hh ht x0 x1 x2 x3 xs xo).1)
theorem coverOutTail (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : ¬condProj i) (hh : ¬condHead i) (ht : condTail i) (x0 : Vec F S4096x64 .f32) (x1 : Vec F S512x512 .f32) (x2 : Vec F S64x64 .f32) (x3 : Vec F S1x64 .f32) (xs : Vec F S4096x64 .bf16) (xo : Vec F S512x64 .f32) (y : S512x64.Idx) :
    ∃ pc ∈ (runTail c i arg2 harg2 arg3 harg3 arg4 harg4 arg5 harg5 arg6 harg6 arg7 harg7 hp hh ht x0 x1 x2 x3 xs xo).1, y ∈ pc.1.set :=
  View.cover_of_tiledL (runTail c i arg2 harg2 arg3 harg3 arg4 harg4 arg5 harg5 arg6 harg6 arg7 harg7 hp hh ht x0 x1 x2 x3 xs xo).1 S512x64.size (by sl_kernel_rfl) y

/-! ## Point by point -/

/-- After the body at position `n`: (the output block's staging buffer, the scratch). -/
def outsAt (c : Dev nD) : (n : ℕ) → n < cfg0.N → Vec F S512x64 .f32 × Vec F S4096x64 .bf16
  | 0, hn =>
    (outFirst c (grid0.coords ⟨0, hn⟩) (mB ⟨0, hn⟩) (hB ⟨0, hn⟩) (mAdj ⟨0, hn⟩) (hAdj ⟨0, hn⟩) (mW ⟨0, hn⟩) (hW ⟨0, hn⟩) (mBias ⟨0, hn⟩) (hBias ⟨0, hn⟩) (mOut ⟨0, hn⟩) (hOut ⟨0, hn⟩) mSup (Memref.isWhole_whole _) ((hcondProj ⟨0, hn⟩).mpr rfl) ((hcondHead ⟨0, hn⟩).mpr (Nat.zero_mod _)) (fun h => (hcondTail ⟨0, hn⟩).mp h (Nat.zero_mod _)) (iblk m c 0 ⟨0, hn⟩) (iblk m c 1 ⟨0, hn⟩) (iblk m c 2 ⟨0, hn⟩) (iblk m c 3 ⟨0, hn⟩),
     supFirst c (grid0.coords ⟨0, hn⟩) (mB ⟨0, hn⟩) (hB ⟨0, hn⟩) (mAdj ⟨0, hn⟩) (hAdj ⟨0, hn⟩) (mW ⟨0, hn⟩) (hW ⟨0, hn⟩) (mBias ⟨0, hn⟩) (hBias ⟨0, hn⟩) (mOut ⟨0, hn⟩) (hOut ⟨0, hn⟩) mSup (Memref.isWhole_whole _) ((hcondProj ⟨0, hn⟩).mpr rfl) ((hcondHead ⟨0, hn⟩).mpr (Nat.zero_mod _)) (fun h => (hcondTail ⟨0, hn⟩).mp h (Nat.zero_mod _)) (iblk m c 0 ⟨0, hn⟩) (iblk m c 1 ⟨0, hn⟩) (iblk m c 2 ⟨0, hn⟩) (iblk m c 3 ⟨0, hn⟩))
  | n + 1, hn =>
    if h : (n + 1) % 8 = 0 then
      (outHead c (grid0.coords ⟨n + 1, hn⟩) (mB ⟨n + 1, hn⟩) (hB ⟨n + 1, hn⟩) (mAdj ⟨n + 1, hn⟩) (hAdj ⟨n + 1, hn⟩) (mW ⟨n + 1, hn⟩) (hW ⟨n + 1, hn⟩) (mBias ⟨n + 1, hn⟩) (hBias ⟨n + 1, hn⟩) (mOut ⟨n + 1, hn⟩) (hOut ⟨n + 1, hn⟩) mSup (Memref.isWhole_whole _) (fun h' => Nat.succ_ne_zero n ((hcondProj ⟨n + 1, hn⟩).mp h')) ((hcondHead ⟨n + 1, hn⟩).mpr h) (fun h' => (hcondTail ⟨n + 1, hn⟩).mp h' h) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
       (outsAt c n (Nat.lt_of_succ_lt hn)).2)
    else
      (outTail c (grid0.coords ⟨n + 1, hn⟩) (mB ⟨n + 1, hn⟩) (hB ⟨n + 1, hn⟩) (mAdj ⟨n + 1, hn⟩) (hAdj ⟨n + 1, hn⟩) (mW ⟨n + 1, hn⟩) (hW ⟨n + 1, hn⟩) (mBias ⟨n + 1, hn⟩) (hBias ⟨n + 1, hn⟩) (mOut ⟨n + 1, hn⟩) (hOut ⟨n + 1, hn⟩) mSup (Memref.isWhole_whole _) (fun h' => Nat.succ_ne_zero n ((hcondProj ⟨n + 1, hn⟩).mp h')) (fun h' => h ((hcondHead ⟨n + 1, hn⟩).mp h')) ((hcondTail ⟨n + 1, hn⟩).mpr h) (iblk m c 0 ⟨n + 1, hn⟩) (iblk m c 1 ⟨n + 1, hn⟩) (iblk m c 2 ⟨n + 1, hn⟩) (iblk m c 3 ⟨n + 1, hn⟩) (outsAt c n (Nat.lt_of_succ_lt hn)).2 (outsAt c n (Nat.lt_of_succ_lt hn)).1,
       (outsAt c n (Nat.lt_of_succ_lt hn)).2)

/-- `outsAt` at the first point. -/
theorem outsAt_first (c : Dev nD) (t : Fin cfg0.N) (h0 : t.val = 0) :
    outsAt m c t.val t.isLt =
      (outFirst c (grid0.coords t) (mB t) (hB t) (mAdj t) (hAdj t) (mW t) (hW t) (mBias t) (hBias t) (mOut t) (hOut t) mSup (Memref.isWhole_whole _) ((hcondProj t).mpr h0) ((hcondHead t).mpr (by rw [h0])) (fun h => (hcondTail t).mp h (by rw [h0])) (iblk m c 0 t) (iblk m c 1 t) (iblk m c 2 t) (iblk m c 3 t),
       supFirst c (grid0.coords t) (mB t) (hB t) (mAdj t) (hAdj t) (mW t) (hW t) (mBias t) (hBias t) (mOut t) (hOut t) mSup (Memref.isWhole_whole _) ((hcondProj t).mpr h0) ((hcondHead t).mpr (by rw [h0])) (fun h => (hcondTail t).mp h (by rw [h0])) (iblk m c 0 t) (iblk m c 1 t) (iblk m c 2 t) (iblk m c 3 t)) := by
  obtain ⟨n, hn⟩ := t
  cases n with
  | zero => rfl
  | succ n => exact absurd h0 (Nat.succ_ne_zero n)

/-- `outsAt` at a head point, over what the point before left. -/
theorem outsAt_head (c : Dev nD) (t : Fin cfg0.N) (h0 : ¬t.val = 0) (h8 : t.val % 8 = 0) :
    outsAt m c t.val t.isLt =
      (outHead c (grid0.coords t) (mB t) (hB t) (mAdj t) (hAdj t) (mW t) (hW t) (mBias t) (hBias t) (mOut t) (hOut t) mSup (Memref.isWhole_whole _) (fun h' => h0 ((hcondProj t).mp h')) ((hcondHead t).mpr h8) (fun h' => (hcondTail t).mp h' h8) (iblk m c 0 t) (iblk m c 1 t) (iblk m c 2 t) (iblk m c 3 t) (outsAt m c (t.val - 1) (Nat.lt_of_le_of_lt (Nat.sub_le _ _) t.isLt)).2,
       (outsAt m c (t.val - 1) (Nat.lt_of_le_of_lt (Nat.sub_le _ _) t.isLt)).2) := by
  obtain ⟨n, hn⟩ := t
  cases n with
  | zero => exact absurd rfl h0
  | succ n => exact (dif_pos h8).trans rfl

/-- `outsAt` at a tail point, over what the point before left. -/
theorem outsAt_tail (c : Dev nD) (t : Fin cfg0.N) (h8 : ¬t.val % 8 = 0) :
    outsAt m c t.val t.isLt =
      (outTail c (grid0.coords t) (mB t) (hB t) (mAdj t) (hAdj t) (mW t) (hW t) (mBias t) (hBias t) (mOut t) (hOut t) mSup (Memref.isWhole_whole _) (fun h' => h8 (by rw [(hcondProj t).mp h'])) (fun h' => h8 ((hcondHead t).mp h')) ((hcondTail t).mpr h8) (iblk m c 0 t) (iblk m c 1 t) (iblk m c 2 t) (iblk m c 3 t) (outsAt m c (t.val - 1) (Nat.lt_of_le_of_lt (Nat.sub_le _ _) t.isLt)).2 (outsAt m c (t.val - 1) (Nat.lt_of_le_of_lt (Nat.sub_le _ _) t.isLt)).1,
       (outsAt m c (t.val - 1) (Nat.lt_of_le_of_lt (Nat.sub_le _ _) t.isLt)).2) := by
  obtain ⟨n, hn⟩ := t
  cases n with
  | zero => exact absurd (Nat.zero_mod _) h8
  | succ n => exact (dif_neg h8).trans rfl

/-! ## The region invariant, carrying the scratch -/

/-- Before position `n`: before the first point the class's invariant (the scratch at anything); afterwards the scratch
    at what the point before left in it, and the generator register at some state. -/
def PhiS (c : Dev nD) : (n : ℕ) → n ≤ cfg0.N → sProp 𝕄
  | 0, _ => Pipeline.ΦA spec0 c
  | n + 1, hn => iprop(iprop(owns (c : Thread nD τ) mSup fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) mSup fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) mSup fullShare ((outsAt m c (n - 1) (by omega)).2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The output window's buffer at a point whose K block is 0 is fresh (the first point, or the point after a write-back): anything. -/
theorem before4_head (c : Dev nD) (t : Fin cfg0.N) (h8 : t.val % 8 = 0) (d) : (dats m 0 c).before 4 t d = d := by
  refine (dats m 0 c).before_out_reset 4 rfl t ?_ d
  by_cases h0 : t.val = 0
  · exact .inl h0
  · refine .inr ⟨h0, (flush0_4 ⟨t.val - 1, Nat.lt_of_le_of_lt (Nat.sub_le _ _) t.isLt⟩).mpr ?_⟩
    show (t.val - 1) % 8 = 7
    omega

/-- At every coordinate one of the two stores into the output block runs (the K block is 0 or it is not). -/
theorem live4_all (i : grid0.Coords) : cfg0.idle 4 i = false := by
  have key : ∀ k : Fin 8, (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)) = false := by decide
  exact key (i 1)

/-- At the other points it holds what the point before left: the accumulator. -/
theorem before4_tail (c : Dev nD) (t : Fin cfg0.N) (h8 : ¬t.val % 8 = 0) (d) :
    (dats m 0 c).before 4 t d = (outsAt m c (t.val - 1) (Nat.lt_of_le_of_lt (Nat.sub_le _ _) t.isLt)).1 := by
  have h0 : t.val ≠ 0 := fun h => h8 (by rw [h])
  have hfl : (cfg0.win 4).flush ⟨t.val - 1, Nat.lt_of_le_of_lt (Nat.sub_le _ _) t.isLt⟩ = false := by
    rw [Bool.eq_false_iff]
    intro hf
    have := (flush0_4 ⟨t.val - 1, Nat.lt_of_le_of_lt (Nat.sub_le _ _) t.isLt⟩).mp hf
    have : (t.val - 1) % 8 = 7 := this
    omega
  rw [(dats m 0 c).before_out_kept 4 rfl t h0 hfl (live4_all) (fun _ _ => rfl) d, after4]

end Cert.KernelIdeal.Body

end
-- ==== Proof.KIBody.lean ====
/-
  The body obligation of the pipeline, the run of the whole program, and its frame. At each point the closed forms say
  which of the three cases the point is in; the case's run applies to what the proof data say the buffers hold (every
  input window its block; the output block anything where the K block is 0 and what the point before left elsewhere;
  the scratch anything at the first point and what the point before left afterwards) and leaves what the proof data say
  the point leaves.
-/
import proofs.«145100_g88725434401306_cont_9to1_m_133_3_alg».proof.Proof.KIOuts

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mB t) fullShare ((dats m 0 c).before 0 t d))
    ∗ (∃ d, owns (c : Thread nD τ) (mAdj t) fullShare ((dats m 0 c).before 1 t d))
    ∗ (∃ d, owns (c : Thread nD τ) (mW t) fullShare ((dats m 0 c).before 2 t d))
    ∗ (∃ d, owns (c : Thread nD τ) (mBias t) fullShare ((dats m 0 c).before 3 t d))
    ∗ (∃ d, owns (c : Thread nD τ) (mOut t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (mB t) fullShare ((dats m 0 c).after 0 t) from by
    unfold Dat.leavesExact; rw [live0 t], after0]
  rw [show (dats m 0 c).leavesExact 1 t = owns (c : Thread nD τ) (mAdj t) fullShare ((dats m 0 c).after 1 t) from by
    unfold Dat.leavesExact; rw [live1 t], after1]
  rw [show (dats m 0 c).leavesExact 2 t = owns (c : Thread nD τ) (mW t) fullShare ((dats m 0 c).after 2 t) from by
    unfold Dat.leavesExact; rw [live2 t], after2]
  rw [show (dats m 0 c).leavesExact 3 t = owns (c : Thread nD τ) (mBias t) fullShare ((dats m 0 c).after 3 t) from by
    unfold Dat.leavesExact; rw [live3 t], after3]
  rw [show (dats m 0 c).leavesExact 4 t = owns (c : Thread nD τ) (mOut t) fullShare ((dats m 0 c).after 4 t) from by
    unfold Dat.leavesExact; rw [live4 t], after4]
  by_cases h8 : t.val % 8 = 0
  · by_cases h0 : t.val = 0
    · -- the first point
      rw [outsAt_first m c t h0]
      unfold outFirst supFirst; (try dsimp only)
      simp only [before4_head m c t h8]
      rw [PhiS_castSucc m c t, PhiS_zero m c _ _ h0, PhiA_eq]
      iintro ⟨⟨HS, Hg⟩, Ho, ⟨%d0, H0⟩, ⟨%d1, H1⟩, ⟨%d2, H2⟩, ⟨%d3, H3⟩, H4⟩
      iapply ((runFirst c (grid0.coords t) _ _ _ _ _ _ _ _ _ _ _ _ ((hcondProj t).mpr h0) ((hcondHead t).mpr h8) (fun h => (hcondTail t).mp h h8) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (coverSupFirst c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutFirst c _ _ _ _ _ _ _ _ _ _ _ _ _ _ _ _ _ _ _ _)
    · -- K block 0 of a later row block
      rw [outsAt_head m c t h0 h8]
      unfold outHead; (try dsimp only)
      simp only [before4_head m c t h8]
      rw [PhiS_castSucc m c t, PhiS_pos m c _ _ h0]
      iintro ⟨⟨HS, Hg⟩, Ho, ⟨%d0, H0⟩, ⟨%d1, H1⟩, ⟨%d2, H2⟩, ⟨%d3, H3⟩, H4⟩
      iapply ((runHead c (grid0.coords t) _ _ _ _ _ _ _ _ _ _ _ _ (fun h' => h0 ((hcondProj t).mp h')) ((hcondHead t).mpr h8) (fun h => (hcondTail t).mp h h8) (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, ⟨%e4, H4⟩, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutHead c _ _ _ _ _ _ _ _ _ _ _ _ _ _ _ _ _ _ _ _ _)
  · -- a later K block
    have h0 : t.val ≠ 0 := fun h => h8 (by rw [h])
    rw [outsAt_tail m c t h8]
    unfold outTail; (try dsimp only)
    simp only [before4_tail m c t h8]
    rw [PhiS_castSucc m c t, PhiS_pos m c _ _ h0]
    iintro ⟨⟨HS, Hg⟩, Ho, ⟨%d0, H0⟩, ⟨%d1, H1⟩, ⟨%d2, H2⟩, ⟨%d3, H3⟩, ⟨%d4, H4⟩⟩
    iapply ((runTail c (grid0.coords t) _ _ _ _ _ _ _ _ _ _ _ _ (fun h' => h0 ((hcondProj t).mp h')) (fun h' => h8 ((hcondHead t).mp h')) ((hcondTail t).mpr h8) (iblk m c 0 t) (iblk m c 1 t) (iblk m c 2 t) (iblk m c 3 t) _ _).2 Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, ⟨%e4, H4⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOutTail c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KIPieces.lean ====
/-
  The pieces the three runs found, read back, are the kernel's payloads: the scratch after the first point is the
  projection payload of the feature and weight blocks; the output block after a point whose K block is 0 is the
  "product plus bias row" payload, and after any other point the "block plus product" payload — each over the
  adjacency block and the 512 rows of the scratch that belong to the point's K block.
-/
import proofs.«145100_g88725434401306_cont_9to1_m_133_3_alg».proof.Proof.KIOuts
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeroOffsets : (![0, 0] : Fin 2 → Nat) = fun _ => 0 := by funext a; fin_cases a <;> rfl

/-- The 512 rows of the scratch that belong to the K block of coordinate `i`. -/
def supRows (i : grid0.Coords) (xs : Vec F S4096x64 .bf16) : Vec F S512x64 .bf16 :=
  View.ld xs (Rect.unit (s := S4096x64) (k0_off1 i) S512x64.size (k0_off1_inb i))

theorem supFirst_eq (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : condProj i) (hh : condHead i) (ht : ¬condTail i) (x0 : Vec F S4096x64 .f32) (x1 : Vec F S512x512 .f32) (x2 : Vec F S64x64 .f32) (x3 : Vec F S1x64 .f32) :
    supFirst (F := F) c i arg2 harg2 arg3 harg3 arg4 harg4 arg5 harg5 arg6 harg6 arg7 harg7 hp hh ht x0 x1 x2 x3 = k0_pay1 x0 x2 := by
  unfold supFirst
  rw [View.read_writes_junk_eq_canon]
  unfold runFirst; dsimp only
  sl_unfold_words
  rw [View.canon_unit_zero zeroOffsets]
  simp only [View.readAt_eq_ld, Memref.IsWhole.read_unread, View.ld_unit_zero (S := S4096x64) zeroOffsets, View.ld_unit_zero (S := S64x64) zeroOffsets]

theorem outFirst_eq (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : condProj i) (hh : condHead i) (ht : ¬condTail i) (x0 : Vec F S4096x64 .f32) (x1 : Vec F S512x512 .f32) (x2 : Vec F S64x64 .f32) (x3 : Vec F S1x64 .f32) :
    outFirst (F := F) c i arg2 harg2 arg3 harg3 arg4 harg4 arg5 harg5 arg6 harg6 arg7 harg7 hp hh ht x0 x1 x2 x3 = k0_pay3 x1 (supRows i (k0_pay1 x0 x2)) x3 := by
  unfold outFirst
  rw [View.read_writes_junk_eq_canon]
  unfold runFirst; dsimp only
  sl_unfold_words
  rw [View.canon_unit_zero zeroOffsets, View.readAt_writes_junk_eq_canon, View.canon_unit_zero zeroOffsets]
  simp only [View.readAt_eq_ld, Memref.IsWhole.read_unread, View.ld_unit_zero (S := S4096x64) zeroOffsets, View.ld_unit_zero (S := S64x64) zeroOffsets,
    View.ld_unit_zero (S := S512x512) zeroOffsets, View.ld_unit_zero (S := S1x64) zeroOffsets]
  rfl

theorem outHead_eq (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : ¬condProj i) (hh : condHead i) (ht : ¬condTail i) (x0 : Vec F S4096x64 .f32) (x1 : Vec F S512x512 .f32) (x2 : Vec F S64x64 .f32) (x3 : Vec F S1x64 .f32) (xs : Vec F S4096x64 .bf16) :
    outHead (F := F) c i arg2 harg2 arg3 harg3 arg4 harg4 arg5 harg5 arg6 harg6 arg7 harg7 hp hh ht x0 x1 x2 x3 xs = k0_pay3 x1 (supRows i xs) x3 := by
  unfold outHead
  rw [View.read_writes_junk_eq_canon]
  unfold runHead; dsimp only
  rw [View.canon_unit_zero zeroOffsets]
  simp only [View.readAt_eq_ld, Memref.IsWhole.read_unread, View.ld_unit_zero (S := S512x512) zeroOffsets, View.ld_unit_zero (S := S1x64) zeroOffsets]
  rfl

theorem outTail_eq (c : Dev nD) (i : grid0.Coords) (arg2 : Memref sig .tc .vmem S4096x64 .f32) (harg2 : arg2.IsWhole) (arg3 : Memref sig .tc .vmem S512x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S4096x64 .bf16) (harg7 : arg7.IsWhole) (hp : ¬condProj i) (hh : ¬condHead i) (ht : condTail i) (x0 : Vec F S4096x64 .f32) (x1 : Vec F S512x512 .f32) (x2 : Vec F S64x64 .f32) (x3 : Vec F S1x64 .f32) (xs : Vec F S4096x64 .bf16) (xo : Vec F S512x64 .f32) :
    outTail (F := F) c i arg2 harg2 arg3 harg3 arg4 harg4 arg5 harg5 arg6 harg6 arg7 harg7 hp hh ht x0 x1 x2 x3 xs xo = k0_pay4 x1 (supRows i xs) xo := by
  unfold outTail
  rw [View.read_writes_junk_eq_canon]
  unfold runTail; dsimp only
  rw [View.canon_unit_zero zeroOffsets]
  simp only [View.readAt_eq_ld, Memref.IsWhole.read_unread, View.ld_unit_zero (S := S512x512) zeroOffsets, View.ld_unit_zero (S := S512x64) zeroOffsets]
  rfl

end Cert.KernelIdeal.Body

end
-- ==== Proof.KIBlocks.lean ====
/- Each window's block at a grid point, read at an index, in terms of the arrays as launched. The grid is 8 × 8 and
   point `t` is (row block, contraction block) = (t / 8, t % 8). The features and the weights are staged whole at every
   point; the adjacency window is the 512 × 512 block (t / 8, t % 8); the bias window is the one row that the host's
   reshape of the 64 numbers wrote before the region; the output window is the 512 × 64 block (t / 8, 0). A block's
   coordinate in its array is always block index × block size + the coordinate inside the block. -/
import proofs.«145100_g88725434401306_cont_9to1_m_133_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.ValueIdx Idealize.ShloMosaic.TcCoe Idealize.SL.Sem

variable {F : FTy → Type} [FloatOps F]
variable (m : (ℓ : Loc nD τ sig) → Buf (Elt F) ℓ)

/-! ## The index maps over the grid -/

/-- The block indices of the five windows at every point of the 8 × 8 grid: the features, the weights and the bias
    stay at block (0, 0); the adjacency is at block (t / 8, t % 8); the output at block (t / 8, 0). -/
theorem idx_facts : ∀ t : Fin cfg0.N,
    win0_0.index t (0 : Fin 2) = 0 ∧ win0_0.index t (1 : Fin 2) = 0
    ∧ win0_1.index t (0 : Fin 2) = t.val / 8 ∧ win0_1.index t (1 : Fin 2) = t.val % 8
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0 :=
  (by decide +kernel : ∀ t : Fin grid0.N, _)

/-- The output window's block index at point `t` is (t / 8, 0). -/
theorem out_blk_idx : ∀ t : Fin cfg0.N, win0_4.index t (0 : Fin 2) = t.val / 8 ∧ win0_4.index t (1 : Fin 2) = 0 :=
  fun t => ⟨(idx_facts t).2.2.2.2.2.2.2.2.1, (idx_facts t).2.2.2.2.2.2.2.2.2⟩

/-- A point of the grid is below 64. -/
theorem t_lt (t : Fin cfg0.N) : t.val < 64 := lt_of_lt_of_eq t.isLt N_0

/-- Row `r` of row block `t / 8` is a row of the 4096. -/
theorem row_lt (t : Fin cfg0.N) (r : Fin 512) : 512 * (t.val / 8) + r.val < 4096 := by
  have ht := t_lt t
  have hr := r.isLt
  omega

/-- Column `l` of contraction block `t % 8` is a column of the 4096. -/
theorem col_lt (t : Fin cfg0.N) (l : Fin 512) : 512 * (t.val % 8) + l.val < 4096 := by
  have hl := l.isLt
  omega

/-! ## The input windows' blocks -/

/-- The features' window is the whole array as launched, at every point. -/
theorem blk_b (c : Dev nD) (t : Fin cfg0.N) (y : S4096x64.Idx) :
    (iblk m c 0 t : S4096x64.Idx → Elt F .f32) y = m ((c : Thread nD τ).loc main_arg0) y := by
  obtain ⟨e0, e1, -⟩ := idx_facts t
  show V m c main_arg0 (((cfg0.win 0).blk t).view.emb y) = _
  rw [V_main_arg0]
  refine congrArg _ (funext fun a => Fin.ext ?_)
  match a with
  | ⟨0, _⟩ => show win0_0.index t (0 : Fin 2) * 4096 + 1 * (y 0).val = (y 0).val; omega
  | ⟨1, _⟩ => show win0_0.index t (1 : Fin 2) * 64 + 1 * (y 1).val = (y 1).val; omega

/-- The weights' window is the whole array as launched, at every point. -/
theorem blk_w (c : Dev nD) (t : Fin cfg0.N) (y : S64x64.Idx) :
    (iblk m c 2 t : S64x64.Idx → Elt F .f32) y = m ((c : Thread nD τ).loc main_arg2) y := by
  obtain ⟨-, -, -, -, e0, e1, -⟩ := idx_facts t
  show V m c main_arg2 (((cfg0.win 2).blk t).view.emb y) = _
  rw [V_main_arg2]
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The adjacency window at point `t` is block (t / 8, t % 8) of the array as launched. -/
theorem blk_adj (c : Dev nD) (t : Fin cfg0.N) (r l : Fin 512) :
    (iblk m c 1 t : S512x512.Idx → Elt F .f32) (ix2 r l)
      = m ((c : Thread nD τ).loc main_arg1) (ix2 (⟨512 * (t.val / 8) + r.val, row_lt t r⟩ : Fin 4096) (⟨512 * (t.val % 8) + l.val, col_lt t l⟩ : Fin 4096)) := by
  obtain ⟨-, -, e0, e1, -⟩ := idx_facts t
  show V m c main_arg1 (((cfg0.win 1).blk t).view.emb (ix2 r l)) = _
  rw [V_main_arg1]
  refine congrArg _ (funext fun a => Fin.ext ?_)
  match a with
  | ⟨0, _⟩ => show win0_1.index t (0 : Fin 2) * 512 + 1 * r.val = 512 * (t.val / 8) + r.val; omega
  | ⟨1, _⟩ => show win0_1.index t (1 : Fin 2) * 512 + 1 * l.val = 512 * (t.val % 8) + l.val; omega

/-- The one-row array the bias window stages is the host's reshape of the 64 numbers as launched. -/
theorem V_bias (c : Dev nD) :
    (V m c main_v0 : S1x64.Idx → Elt F .f32) = shapeCast S1x64 (m ((c : Thread nD τ).loc main_arg3)) shapeCasts_S64_S1x64 := by
  dsimp only [Gen.V, Gen.hostOps0]
  after_results
  rfl

/-- The bias window's row at column `cc` is the bias as launched at `cc`, at every point. -/
theorem blk_bias (c : Dev nD) (t : Fin cfg0.N) (cc : Fin 64) :
    (iblk m c 3 t : S1x64.Idx → Elt F .f32) (ix2 0 cc) = m ((c : Thread nD τ).loc main_arg3) (ix1 cc) := by
  obtain ⟨-, -, -, -, -, -, e0, e1, -⟩ := idx_facts t
  show V m c main_v0 (((cfg0.win 3).blk t).view.emb (ix2 0 cc)) = _
  have hi : ((cfg0.win 3).blk t).view.emb (ix2 (0 : Fin 1) cc) = (ix2 (0 : Fin 1) cc : S1x64.Idx) := by
    funext a; apply Fin.ext
    match a with
    | ⟨0, _⟩ => show win0_3.index t (0 : Fin 2) * 1 + 1 * 0 = 0; omega
    | ⟨1, _⟩ => show win0_3.index t (1 : Fin 2) * 64 + 1 * cc.val = cc.val; omega
  rw [hi, V_bias]
  exact shapeCast_a_1a_apply _ _ 0 cc

end Cert.KernelIdeal.Blocks

end
-- ==== Proof.KIFinal.lean ====
/- From the rows of the flushed output blocks to the whole output array. The output window has blocks of 512 × 64 at
   block index (t / 8, 0) and is written back exactly at the points with t % 8 = 7: the eight written blocks are the
   eight bands of 512 rows and tile the 4096 × 64 array. So if what each writing point leaves in the staging buffer
   is the band's rows of a function `G` of the whole array's index, the array ends holding `G`. -/
import proofs.«145100_g88725434401306_cont_9to1_m_133_3_alg».proof.Proof.KIOuts
import proofs.«145100_g88725434401306_cont_9to1_m_133_3_alg».proof.Proof.KIBlocks
import Idealize.ShloMosaic.Lib.Pipeline.Value

set_option maxRecDepth 16384

noncomputable section

namespace Cert.KernelIdeal.Final

open Cert.KernelIdeal Cert.KernelIdeal.Gen Cert.KernelIdeal.Body Cert.KernelIdeal.Blocks
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- An index of the output array is in point `t`'s block iff each coordinate is in the block's range on its axis. -/
theorem mem_outBlock (t : Fin cfg0.N) (i : S4096x64.Idx) :
    i ∈ ((cfg0.win 4).blk t).view.set ↔ ∀ a : Fin 2, win0_4.index t a * S512x64.size a ≤ (i a).val ∧ (i a).val < win0_4.index t a * S512x64.size a + S512x64.size a := by
  show i ∈ ((View.whole main_v1).slice (win0_4.rect t)).set ↔ _
  rw [View.set_slice_whole, Rect.mem_set_unit]
  exact Iff.rfl

/-- Every index of the output array is in the block of a point that writes back: row `ρ` lies in band `ρ / 512`,
    whose writing point is `8 * (ρ / 512) + 7`. -/
theorem outBlocks_cover : ∀ i : S4096x64.Idx, ∃ t : Fin cfg0.N, (cfg0.win 4).flush t = true ∧ i ∈ ((cfg0.win 4).blk t).view.set := by
  intro i
  have hi0 : (i 0).val < 4096 := (i 0).isLt
  have hi1 : (i 1).val < 64 := (i 1).isLt
  have hN : 8 * ((i 0).val / 512) + 7 < cfg0.N := lt_of_lt_of_eq (by omega : 8 * ((i 0).val / 512) + 7 < 64) N_0.symm
  obtain ⟨tt, htt⟩ : ∃ tt : Fin cfg0.N, tt.val = 8 * ((i 0).val / 512) + 7 := ⟨⟨_, hN⟩, rfl⟩
  obtain ⟨e0, e1⟩ := out_blk_idx tt
  refine ⟨tt, (flush0_4 tt).mpr (by omega), ?_⟩
  rw [mem_outBlock]
  intro a
  match a with
  | ⟨0, _⟩ => show win0_4.index tt (0 : Fin 2) * 512 ≤ (i 0).val ∧ (i 0).val < win0_4.index tt (0 : Fin 2) * 512 + 512; omega
  | ⟨1, _⟩ => show win0_4.index tt (1 : Fin 2) * 64 ≤ (i 1).val ∧ (i 1).val < win0_4.index tt (1 : Fin 2) * 64 + 64; omega

/-- If at every writing point the staging buffer holds the band's rows of `G`, the output array ends holding `G`. -/
theorem final_of_rows (m : (ℓ : Loc nD τ sig) → Buf (Elt F) ℓ) (c : Dev nD) (G : S4096x64.Idx → Elt F .f32)
    (hrow : ∀ (t : Fin cfg0.N), t.val % 8 = 7 → ∀ (r : Fin 512) (cc : Fin 64),
      (outsAt m c t.val t.isLt).1 (ix2 r cc) = G (ix2 (⟨512 * (t.val / 8) + r.val, row_lt t r⟩ : Fin 4096) cc)) :
    (dats m 0 c).arrAt 4 cfg0.N = G := by
  refine (dats m 0 c).arrAt_eq_of_cover 4 G (fun t hf => ?_) outBlocks_cover
  show (cfg0.win 4).cut (grid0.coords t) ((dats m 0 c).after 4 t) = _
  rw [after4]
  funext j
  obtain ⟨r, cc, rfl⟩ : ∃ (r : Fin 512) (cc : Fin 64), j = ix2 r cc := ⟨j 0, j 1, eq_ix2 j⟩
  show (outsAt m c t.val t.isLt).1 (ix2 r cc) = G (((cfg0.win 4).blk t).view.emb (ix2 r cc))
  refine (hrow t ((flush0_4 t).mp hf) r cc).trans ?_
  obtain ⟨e0, e1⟩ := out_blk_idx t
  refine congrArg G (funext fun a => Fin.ext ?_)
  match a with
  | ⟨0, _⟩ => show 512 * (t.val / 8) + r.val = win0_4.index t (0 : Fin 2) * 512 + 1 * r.val; omega
  | ⟨1, _⟩ => show cc.val = win0_4.index t (1 : Fin 2) * 64 + 1 * cc.val; omega

end Cert.KernelIdeal.Final

end
-- ==== Proof.GcnSpec.lean ====
/- The mathematics of one graph-convolution layer at the ideal instance, stated over plain functions of an index into
   the extended reals, with no program in sight.

   `proj x w` is the matrix product of a 4096 × 64 array by a 64 × 64 array; `gcn adj s bias` is the product of a
   4096 × 4096 array by a 4096 × 64 array plus a row of 64 numbers added to every row. `accum f β j` is the value
   a blocked evaluation of such a sum holds after block `j`: the first block of 512 terms plus `β`, then one further
   block of 512 terms added per step; `accum_eq` says this is the sum of the first `(j + 1) * 512` terms plus `β`.
   The extended reals are an additive commutative monoid, so regrouping the sums needs no finiteness. -/
import Idealize.ShloMosaic.Lib.ValueIdx

noncomputable section

open scoped BigOperators

namespace Cert.GcnSpec

open Idealize.ShloMosaic Idealize.ShloMosaic.ValueIdx

/-- The product of a 4096 × 64 array by a 64 × 64 array, read at an index. -/
def proj (x : (⟨2, ![4096, 64]⟩ : Shape).Idx → EReal) (w : (⟨2, ![64, 64]⟩ : Shape).Idx → EReal) :
    (⟨2, ![4096, 64]⟩ : Shape).Idx → EReal :=
  fun i => ∑ k : Fin 64, x (ix2 (i 0) k) * w (ix2 k (i 1))

/-- The product of a 4096 × 4096 array by a 4096 × 64 array plus a row added to every row, read at an index. -/
def gcn (adj : (⟨2, ![4096, 4096]⟩ : Shape).Idx → EReal) (s : (⟨2, ![4096, 64]⟩ : Shape).Idx → EReal)
    (bias : (⟨1, ![64]⟩ : Shape).Idx → EReal) : (⟨2, ![4096, 64]⟩ : Shape).Idx → EReal :=
  fun i => (∑ k : Fin 4096, adj (ix2 (i 0) k) * s (ix2 k (i 1))) + bias (ix1 (i 1))

/-- The blocked evaluation of `(∑ k, f k) + β` in blocks of 512 terms: block 0 is summed and `β` added, every
    further block is summed and added to what is there. -/
def accum (f : ℕ → EReal) (β : EReal) : ℕ → EReal
  | 0 => (∑ l : Fin 512, f l.val) + β
  | (j + 1) => accum f β j + ∑ l : Fin 512, f ((j + 1) * 512 + l.val)

/-- After block `j` the blocked evaluation holds the sum of the first `(j + 1) * 512` terms plus `β`. -/
theorem accum_eq (f : ℕ → EReal) (β : EReal) (j : ℕ) :
    accum f β j = (∑ k ∈ Finset.range ((j + 1) * 512), f k) + β := by
  induction j with
  | zero =>
    show (∑ l : Fin 512, f l.val) + β = _
    rw [Fin.sum_univ_eq_sum_range (fun k => f k) 512, Nat.zero_add, Nat.one_mul]
  | succ j ih =>
    show accum f β j + ∑ l : Fin 512, f ((j + 1) * 512 + l.val) = _
    rw [ih, Fin.sum_univ_eq_sum_range (fun k => f ((j + 1) * 512 + k)) 512,
      show (j + 1 + 1) * 512 = (j + 1) * 512 + 512 from Nat.succ_mul (j + 1) 512, Finset.sum_range_add]
    exact add_right_comm _ _ _

/-- A sum over `Fin n` whose terms are a function of the index's value is the sum over `range n`. -/
theorem sum_fin_eq_range (n : ℕ) (g : Fin n → EReal) (f : ℕ → EReal) (h : ∀ k : Fin n, g k = f k.val) :
    ∑ k, g k = ∑ k ∈ Finset.range n, f k := by
  rw [← Fin.sum_univ_eq_sum_range f n]
  exact Finset.sum_congr rfl fun k _ => h k

end Cert.GcnSpec

end
-- ==== Proof.PayAt.lean ====
/- The kernel's payloads read at an index, at the ideal instance. There the change of float format and a shape cast to
   the same shape are the identity, a product into the zero accumulator is the plain finite sum over the contraction
   index, and a row broadcast over many rows reads the row at the column. So: the first payload is the projection of the
   features; the second is one block product; the third adds the bias row to it; the fourth adds it to what was
   accumulated. -/
import proofs.«145100_g88725434401306_cont_9to1_m_133_3_alg».proof.Proof.GcnSpec
import proofs.«145100_g88725434401306_cont_9to1_m_133_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayAt

open Cert.KernelIdeal Cert.KernelIdeal.Gen Idealize.ShloMosaic Idealize.ShloMosaic.ValueIdx

/-! ## The operand indices of the two products -/

theorem lhs_big_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhs_big_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem rhs_big_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem rhs_big_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

theorem lhs_blk_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem lhs_blk_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
theorem rhs_blk_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
theorem rhs_blk_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-! ## The two products into the zero accumulator -/

/-- The 4096 × 64 by 64 × 64 product into the zero accumulator at (r, c) is the sum over the 64 contraction indices. -/
theorem mm_big_apply {φ₁ φ₂ : FTy} (x : FVec Ideal S4096x64 φ₁) (w : FVec Ideal S64x64 φ₂) (r : Fin 4096) (c : Fin 64) :
    FloatOps.matmul dot_S4096x64_S64x64_S4096x64_1_0_0_1_n_n none x w (constant (F := Ideal) S4096x64 .f32 0x00000000#32) (ix2 r c)
      = ∑ k : Fin 64, x (ix2 r k) * w (ix2 k c) := by
  rw [Ideal.matmul_constant_zero_apply, ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 r c) ((contrEquiv1 dot_S4096x64_S64x64_S4096x64_1_0_0_1_n_n 64 rfl rfl).symm k) = ix2 r k := funext fun a => Fin.ext (by
    match a with
    | ⟨0, _⟩ => exact lhs_big_0 _ _
    | ⟨1, _⟩ => exact (lhs_big_1 _ _).trans hk)
  have er : dot_S4096x64_S64x64_S4096x64_1_0_0_1_n_n.rhsIdx (ix2 r c) ((contrEquiv1 dot_S4096x64_S64x64_S4096x64_1_0_0_1_n_n 64 rfl rfl).symm k) = ix2 k c := funext fun a => Fin.ext (by
    match a with
    | ⟨0, _⟩ => exact (rhs_big_0 _ _).trans hk
    | ⟨1, _⟩ => exact rhs_big_1 _ _)
  rw [el, er]

/-- The 512 × 512 by 512 × 64 product into the zero accumulator at (r, c) is the sum over the 512 contraction indices. -/
theorem mm_blk_apply {φ₁ φ₂ : FTy} (x : FVec Ideal S512x512 φ₁) (s : FVec Ideal S512x64 φ₂) (r : Fin 512) (c : Fin 64) :
    FloatOps.matmul dot_S512x512_S512x64_S512x64_1_0_0_1_n_n none x s (constant (F := Ideal) S512x64 .f32 0x00000000#32) (ix2 r c)
      = ∑ l : Fin 512, x (ix2 r l) * s (ix2 l c) := by
  rw [Ideal.matmul_constant_zero_apply, ← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 r c) ((contrEquiv1 dot_S512x512_S512x64_S512x64_1_0_0_1_n_n 512 rfl rfl).symm k) = ix2 r k := funext fun a => Fin.ext (by
    match a with
    | ⟨0, _⟩ => exact lhs_blk_0 _ _
    | ⟨1, _⟩ => exact (lhs_blk_1 _ _).trans hk)
  have er : dot_S512x512_S512x64_S512x64_1_0_0_1_n_n.rhsIdx (ix2 r c) ((contrEquiv1 dot_S512x512_S512x64_S512x64_1_0_0_1_n_n 512 rfl rfl).symm k) = ix2 k c := funext fun a => Fin.ext (by
    match a with
    | ⟨0, _⟩ => exact (rhs_blk_0 _ _).trans hk
    | ⟨1, _⟩ => exact rhs_blk_1 _ _)
  rw [el, er]

/-! ## The payloads -/

/-- The first payload is the projection of the features by the weights. -/
theorem pay1_eq (b : Vec Ideal S4096x64 .f32) (w : Vec Ideal S64x64 .f32) :
    k0_pay1 (F := Ideal) b w = Cert.GcnSpec.proj b w := by
  have e : k0_pay1 (F := Ideal) b w
      = FloatOps.matmul (φ₁ := .f32) (φ₂ := .f32) dot_S4096x64_S64x64_S4096x64_1_0_0_1_n_n none b w
          (constant (F := Ideal) S4096x64 .f32 0x00000000#32) := by
    unfold k0_pay1
    exact shapeCast_self _ _
  funext i
  obtain ⟨r, c, rfl⟩ : ∃ r c, i = ix2 r c := ⟨i 0, i 1, eq_ix2 i⟩
  rw [e]
  exact mm_big_apply (φ₁ := .f32) (φ₂ := .f32) b w r c

/-- The second payload, one block product, at (r, c). -/
theorem pay2_apply (x : Vec Ideal S512x512 .f32) (s : Vec Ideal S512x64 .bf16) (r : Fin 512) (c : Fin 64) :
    k0_pay2 (F := Ideal) x s (ix2 r c) = ∑ l : Fin 512, x (ix2 r l) * s (ix2 l c) :=
  mm_blk_apply (φ₁ := .bf16) (φ₂ := .bf16) x s r c

/-- The third payload: the block product plus the bias row at the column. -/
theorem pay3_apply (x : Vec Ideal S512x512 .f32) (s : Vec Ideal S512x64 .bf16) (β : Vec Ideal S1x64 .f32) (r : Fin 512) (c : Fin 64) :
    k0_pay3 (F := Ideal) x s β (ix2 r c) = (∑ l : Fin 512, x (ix2 r l) * s (ix2 l c)) + β (ix2 0 c) := by
  have e : k0_pay3 (F := Ideal) x s β (ix2 r c)
      = k0_pay2 (F := Ideal) x s (ix2 r c)
        + broadcastTo S512x64 (shapeCast S1x64 β shapeCasts_S1x64_S1x64) broadcasts_S1x64_S512x64 (ix2 r c) := rfl
  have e2 : shapeCast S1x64 β shapeCasts_S1x64_S1x64 = β := shapeCast_self _ _
  rw [e, e2, pay2_apply]
  exact congrArg (_ + ·) (broadcastTo_1b_ab_apply β broadcasts_S1x64_S512x64 r c)

/-- The fourth payload: what was accumulated plus the block product. -/
theorem pay4_apply (x : Vec Ideal S512x512 .f32) (s : Vec Ideal S512x64 .bf16) (acc : Vec Ideal S512x64 .f32) (r : Fin 512) (c : Fin 64) :
    k0_pay4 (F := Ideal) x s acc (ix2 r c) = acc (ix2 r c) + ∑ l : Fin 512, x (ix2 r l) * s (ix2 l c) := by
  have e : k0_pay4 (F := Ideal) x s acc (ix2 r c)
      = shapeCast S512x64 acc shapeCasts_S512x64_S512x64 (ix2 r c) + k0_pay2 (F := Ideal) x s (ix2 r c) := rfl
  have e2 : shapeCast S512x64 acc shapeCasts_S512x64_S512x64 = acc := shapeCast_self _ _
  rw [e, e2, pay2_apply]

end Cert.KernelIdeal.PayAt

end
-- ==== Proof.KIValue.lean ====
/-
  What the kernel computes, at the ideal instance. The scratch holds the projection b @ w of the launch arrays from the
  first point on (it is stored once and only read afterwards). The output block's staging buffer, after the point of
  row block i and K block j, holds at (r, c) the bias entry c plus the first (j + 1) * 512 terms of the sum over k of
  adj[512 i + r, k] * (b @ w)[k, c], evaluated block by block: the first block is summed and the bias added, every later
  block is summed and added to what the buffer holds. After the last K block that is the whole sum, so each block written
  back is a block of adj @ (b @ w) + bias, and the blocks written back tile the result array.
-/
import proofs.«145100_g88725434401306_cont_9to1_m_133_3_alg».proof.Proof.KIBody
import proofs.«145100_g88725434401306_cont_9to1_m_133_3_alg».proof.Proof.KIPieces
import proofs.«145100_g88725434401306_cont_9to1_m_133_3_alg».proof.Proof.KIBlocks
import proofs.«145100_g88725434401306_cont_9to1_m_133_3_alg».proof.Proof.KIFinal
import proofs.«145100_g88725434401306_cont_9to1_m_133_3_alg».proof.Proof.PayAt
import proofs.«145100_g88725434401306_cont_9to1_m_133_3_alg».proof.Proof.GcnSpec

set_option maxRecDepth 16384

noncomputable section

open scoped BigOperators

namespace Cert.KernelIdeal.Result

open Cert.KernelIdeal Cert.KernelIdeal.Gen Cert.KernelIdeal.Body Cert.KernelIdeal.Blocks Cert.KernelIdeal.PayAt Cert.GcnSpec
open Idealize.ShloMosaic Idealize.ShloMosaic.ValueIdx Idealize.ShloMosaic.TcCoe Idealize.SL.Sem

/-! ## The rows of the scratch a point reads -/

/-- The scratch rows a point loads start at 512 times its K block. -/
theorem off_facts : ∀ t : Fin cfg0.N, k0_off1 (grid0.coords t) 0 = 512 * (t.val % 8) ∧ k0_off1 (grid0.coords t) 1 = 0 :=
  (by decide +kernel : ∀ t : Fin grid0.N, k0_off1 (grid0.coords t) 0 = 512 * (t.val % 8) ∧ k0_off1 (grid0.coords t) 1 = 0)

theorem supRows_apply {F : FTy → Type} [FloatOps F] (t : Fin cfg0.N) (xs : Vec F S4096x64 .bf16) (l : Fin 512) (cc : Fin 64) :
    supRows (grid0.coords t) xs (ix2 l cc) = xs (ix2 (⟨512 * (t.val % 8) + l.val, col_lt t l⟩ : Fin 4096) cc) := by
  unfold supRows
  show xs ((Rect.unit (s := S4096x64) (k0_off1 (grid0.coords t)) S512x64.size (k0_off1_inb _)).emb (ix2 l cc)) = _
  refine congrArg xs ?_
  funext a; apply Fin.ext
  obtain ⟨e0, e1⟩ := off_facts t
  match a with
  | ⟨0, _⟩ => show k0_off1 (grid0.coords t) 0 + 1 * l.val = 512 * (t.val % 8) + l.val; omega
  | ⟨1, _⟩ => show k0_off1 (grid0.coords t) 1 + 1 * cc.val = cc.val; omega

variable (m : (ℓ : Loc nD τ sig) → Buf (Elt Ideal) ℓ) (c : Dev nD)

/-! ## The functions of the launch arrays -/

/-- The launch arrays, as functions of an index into the extended reals. -/
abbrev adjA : S4096x4096.Idx → EReal := m ((c : Thread nD τ).loc main_arg1)
abbrev biasA : S64.Idx → EReal := m ((c : Thread nD τ).loc main_arg3)

/-- The projection b @ w of the launch arrays. -/
def sup : S4096x64.Idx → EReal :=
  proj (m ((c : Thread nD τ).loc main_arg0)) (m ((c : Thread nD τ).loc main_arg2))

/-- The layer's result adj @ (b @ w) + bias of the launch arrays. -/
def result : S4096x64.Idx → EReal :=
  gcn (adjA m c) (sup m c) (biasA m c)

/-- Term k of the sum that entry (row, cc) of the result is, as a function of k on the naturals (0 past the extent). -/
def term (row : Fin 4096) (cc : Fin 64) (k : ℕ) : EReal :=
  if h : k < 4096 then adjA m c (ix2 row ⟨k, h⟩) * sup m c (ix2 ⟨k, h⟩ cc) else 0

theorem term_at (row : Fin 4096) (cc : Fin 64) (k : ℕ) (k' : Fin 4096) (hk : k'.val = k) :
    term m c row cc k = adjA m c (ix2 row k') * sup m c (ix2 k' cc) := by
  subst hk; unfold term; rw [dif_pos k'.isLt]

/-- The array row a block row of point `t` is. -/
def rowOf (t : Fin cfg0.N) (r : Fin 512) : Fin 4096 := ⟨512 * (t.val / 8) + r.val, row_lt t r⟩

/-- The projection payload of the feature and weight blocks is the projection of the launch arrays. -/
theorem pay1_sup (t : Fin cfg0.N) : k0_pay1 (F := Ideal) (iblk m c 0 t) (iblk m c 2 t) = sup m c := by
  refine (pay1_eq (iblk m c 0 t) (iblk m c 2 t)).trans ?_
  unfold sup
  congr 1
  · funext y; exact blk_b m c t y
  · funext y; exact blk_w m c t y

/-! ## One point's arithmetic, over variables -/

/-- A point whose K block is 0: the first block of terms plus the bias entry. -/
theorem head_value (t : Fin cfg0.N) (x1 : Vec Ideal S512x512 .f32) (xs : Vec Ideal S4096x64 .bf16) (x3 : Vec Ideal S1x64 .f32)
    (h8 : t.val % 8 = 0)
    (hx1 : ∀ r l : Fin 512, x1 (ix2 r l) = adjA m c (ix2 (⟨512 * (t.val / 8) + r.val, row_lt t r⟩ : Fin 4096) (⟨512 * (t.val % 8) + l.val, col_lt t l⟩ : Fin 4096)))
    (hxs : xs = sup m c) (hx3 : ∀ cc : Fin 64, x3 (ix2 0 cc) = biasA m c (ix1 cc))
    (r : Fin 512) (cc : Fin 64) :
    k0_pay3 (F := Ideal) x1 (supRows (grid0.coords t) xs) x3 (ix2 r cc)
      = accum (term m c (rowOf t r) cc) (biasA m c (ix1 cc)) (t.val % 8) := by
  subst hxs
  have hacc : accum (term m c (rowOf t r) cc) (biasA m c (ix1 cc)) (t.val % 8)
      = (∑ l : Fin 512, term m c (rowOf t r) cc l.val) + biasA m c (ix1 cc) := by rw [h8]; rfl
  rw [hacc, pay3_apply, hx3 cc]
  congr 1
  refine Finset.sum_congr rfl fun l _ => ?_
  rw [hx1 r l, supRows_apply t _ l cc,
    term_at m c (rowOf t r) cc l.val (⟨512 * (t.val % 8) + l.val, col_lt t l⟩ : Fin 4096) (by show 512 * (t.val % 8) + l.val = l.val; omega)]
  rfl

/-- A point whose K block is not 0: what the block held plus the next block of terms. -/
theorem tail_value (t : Fin cfg0.N) (x1 : Vec Ideal S512x512 .f32) (xs : Vec Ideal S4096x64 .bf16) (xo : Vec Ideal S512x64 .f32)
    (h8 : ¬t.val % 8 = 0)
    (hx1 : ∀ r l : Fin 512, x1 (ix2 r l) = adjA m c (ix2 (⟨512 * (t.val / 8) + r.val, row_lt t r⟩ : Fin 4096) (⟨512 * (t.val % 8) + l.val, col_lt t l⟩ : Fin 4096)))
    (hxs : xs = sup m c) (r : Fin 512) (cc : Fin 64)
    (hxo : xo (ix2 r cc) = accum (term m c (rowOf t r) cc) (biasA m c (ix1 cc)) (t.val % 8 - 1)) :
    k0_pay4 (F := Ideal) x1 (supRows (grid0.coords t) xs) xo (ix2 r cc)
      = accum (term m c (rowOf t r) cc) (biasA m c (ix1 cc)) (t.val % 8) := by
  subst hxs
  obtain ⟨j, hj⟩ : ∃ j, t.val % 8 = j + 1 := ⟨t.val % 8 - 1, by omega⟩
  have hj7 : j + 1 < 8 := by omega
  have hacc : accum (term m c (rowOf t r) cc) (biasA m c (ix1 cc)) (t.val % 8)
      = accum (term m c (rowOf t r) cc) (biasA m c (ix1 cc)) (t.val % 8 - 1)
        + ∑ l : Fin 512, term m c (rowOf t r) cc ((j + 1) * 512 + l.val) := by
    rw [hj]; rfl
  rw [hacc, pay4_apply, hxo]
  congr 1
  refine Finset.sum_congr rfl fun l _ => ?_
  rw [hx1 r l, supRows_apply t _ l cc,
    term_at m c (rowOf t r) cc ((j + 1) * 512 + l.val) (⟨512 * (t.val % 8) + l.val, col_lt t l⟩ : Fin 4096) (by show 512 * (t.val % 8) + l.val = (j + 1) * 512 + l.val; omega)]
  rfl

/-! ## Point by point -/

/-- From the first point on the scratch holds the projection. -/
theorem sup_inv : ∀ (n : ℕ) (hn : n < cfg0.N), (outsAt m c n hn).2 = sup m c
  | 0, hn => by
    refine (congrArg Prod.snd (outsAt_first m c ⟨0, hn⟩ rfl)).trans ?_
    dsimp only
    refine (supFirst_eq c _ _ _ _ _ _ _ _ _ _ _ _ _ _ _ _ (iblk m c 0 ⟨0, hn⟩) (iblk m c 1 ⟨0, hn⟩) (iblk m c 2 ⟨0, hn⟩) (iblk m c 3 ⟨0, hn⟩)).trans ?_
    exact pay1_sup m c ⟨0, hn⟩
  | n + 1, hn => by
    by_cases h8 : (n + 1) % 8 = 0
    · refine (congrArg Prod.snd (outsAt_head m c ⟨n + 1, hn⟩ (Nat.succ_ne_zero n) h8)).trans ?_
      dsimp only
      exact sup_inv n _
    · refine (congrArg Prod.snd (outsAt_tail m c ⟨n + 1, hn⟩ h8)).trans ?_
      dsimp only
      exact sup_inv n _

/-- After point `n` the output block's buffer holds, entry by entry, the blocked evaluation after K block `n % 8`. -/
theorem out_inv : ∀ (n : ℕ) (hn : n < cfg0.N) (r : Fin 512) (cc : Fin 64),
    (outsAt m c n hn).1 (ix2 r cc)
      = accum (term m c (rowOf ⟨n, hn⟩ r) cc) (biasA m c (ix1 cc)) (n % 8)
  | 0, hn, r, cc => by
    refine (congrFun (congrArg Prod.fst (outsAt_first m c ⟨0, hn⟩ rfl)) (ix2 r cc)).trans ?_
    dsimp only
    refine (congrFun (outFirst_eq c _ _ _ _ _ _ _ _ _ _ _ _ _ _ _ _ (iblk m c 0 ⟨0, hn⟩) (iblk m c 1 ⟨0, hn⟩) (iblk m c 2 ⟨0, hn⟩) (iblk m c 3 ⟨0, hn⟩)) (ix2 r cc)).trans ?_
    exact head_value m c ⟨0, hn⟩ (iblk m c 1 ⟨0, hn⟩) (k0_pay1 (iblk m c 0 ⟨0, hn⟩) (iblk m c 2 ⟨0, hn⟩)) (iblk m c 3 ⟨0, hn⟩) (Nat.zero_mod 8)
      (blk_adj m c ⟨0, hn⟩) (pay1_sup m c ⟨0, hn⟩) (blk_bias m c ⟨0, hn⟩) r cc
  | n + 1, hn, r, cc => by
    by_cases h8 : (n + 1) % 8 = 0
    · refine (congrFun (congrArg Prod.fst (outsAt_head m c ⟨n + 1, hn⟩ (Nat.succ_ne_zero n) h8)) (ix2 r cc)).trans ?_
      dsimp only
      refine (congrFun (outHead_eq c _ _ _ _ _ _ _ _ _ _ _ _ _ _ _ _ (iblk m c 0 ⟨n + 1, hn⟩) (iblk m c 1 ⟨n + 1, hn⟩) (iblk m c 2 ⟨n + 1, hn⟩) (iblk m c 3 ⟨n + 1, hn⟩) _) (ix2 r cc)).trans ?_
      exact head_value m c ⟨n + 1, hn⟩ (iblk m c 1 ⟨n + 1, hn⟩) _ (iblk m c 3 ⟨n + 1, hn⟩) h8
        (blk_adj m c ⟨n + 1, hn⟩) (sup_inv m c n _) (blk_bias m c ⟨n + 1, hn⟩) r cc
    · refine (congrFun (congrArg Prod.fst (outsAt_tail m c ⟨n + 1, hn⟩ h8)) (ix2 r cc)).trans ?_
      dsimp only
      refine (congrFun (outTail_eq c _ _ _ _ _ _ _ _ _ _ _ _ _ _ _ _ (iblk m c 0 ⟨n + 1, hn⟩) (iblk m c 1 ⟨n + 1, hn⟩) (iblk m c 2 ⟨n + 1, hn⟩) (iblk m c 3 ⟨n + 1, hn⟩) _ _) (ix2 r cc)).trans ?_
      refine tail_value m c ⟨n + 1, hn⟩ (iblk m c 1 ⟨n + 1, hn⟩) _ _ h8 (blk_adj m c ⟨n + 1, hn⟩) (sup_inv m c n _) r cc ?_
      have ih := out_inv n (Nat.lt_of_succ_lt hn) r cc
      have e1 : rowOf ⟨n, Nat.lt_of_succ_lt hn⟩ r = rowOf ⟨n + 1, hn⟩ r :=
        Fin.ext (by show 512 * (n / 8) + r.val = 512 * ((n + 1) / 8) + r.val; omega)
      have e2 : n % 8 = (n + 1) % 8 - 1 := by omega
      rw [e1, e2] at ih
      exact ih

/-- After the last K block of a row block the buffer holds that block of the result. -/
theorem row_value (t : Fin cfg0.N) (h7 : t.val % 8 = 7) (r : Fin 512) (cc : Fin 64) :
    (outsAt m c t.val t.isLt).1 (ix2 r cc) = result m c (ix2 (⟨512 * (t.val / 8) + r.val, row_lt t r⟩ : Fin 4096) cc) := by
  refine (out_inv m c t.val t.isLt r cc).trans ?_
  have hacc : accum (term m c (rowOf ⟨t.val, t.isLt⟩ r) cc) (biasA m c (ix1 cc)) (t.val % 8)
      = (∑ k ∈ Finset.range 4096, term m c (rowOf t r) cc k) + biasA m c (ix1 cc) := by
    rw [h7, accum_eq]
  have hs : (∑ k ∈ Finset.range 4096, term m c (rowOf t r) cc k) = ∑ k : Fin 4096, adjA m c (ix2 (rowOf t r) k) * sup m c (ix2 k cc) :=
    (sum_fin_eq_range 4096 _ (term m c (rowOf t r) cc) (fun k => (term_at m c (rowOf t r) cc k.val k rfl).symm)).symm
  rw [hacc, hs]
  rfl

/-! ## The result array, and the run -/

/-- After the run the result array holds adj @ (b @ w) + bias of the launch arrays. -/
theorem final : (dats m 0 c).arrAt 4 cfg0.N = result m c :=
  Cert.KernelIdeal.Final.final_of_rows m c (result m c) (row_value m c)

/-- Every weakly fair execution of the idealized kernel terminates with the result array at the layer's result of the
    launch arrays and the argument arrays unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main (F := Ideal) m ρ)

end Cert.KernelIdeal.Result

end
-- ==== Proof.RefIsGcn.lean ====
/- The reference program's result, read at an index, is one graph-convolution layer: the adjacency array times the
   projected features plus the bias row. Each operation of the reference is read at an index by its generated lemma;
   what is left is to identify the operand indices with the coordinates (row, contraction index) and
   (contraction index, column), and the two broadcasts of the bias with reading the row at the column. -/
import proofs.«145100_g88725434401306_cont_9to1_m_133_3_alg».proof.Proof.GcnSpec
import proofs.«145100_g88725434401306_cont_9to1_m_133_3_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx

/-- The left operand's index of the second product is (row, contraction index). -/
theorem lidx_v1_eq (i : S4096x64.Idx) (k : Fin 4096) : lidx_main_v1 i k = ix2 (i 0) k :=
  funext fun a => Fin.ext (by match a with | ⟨0, _⟩ => rfl | ⟨1, _⟩ => rfl)

/-- The right operand's index of the second product is (contraction index, column). -/
theorem ridx_v1_eq (i : S4096x64.Idx) (k : Fin 4096) : ridx_main_v1 i k = ix2 k (i 1) :=
  funext fun a => Fin.ext (by match a with | ⟨0, _⟩ => rfl | ⟨1, _⟩ => rfl)

/-- The left operand's index of the first product is (row, contraction index). -/
theorem lidx_v0_eq (i : S4096x64.Idx) (k : Fin 64) : lidx_main_v0 i k = ix2 (i 0) k :=
  funext fun a => Fin.ext (by match a with | ⟨0, _⟩ => rfl | ⟨1, _⟩ => rfl)

/-- The right operand's index of the first product is (contraction index, column). -/
theorem ridx_v0_eq (i : S4096x64.Idx) (k : Fin 64) : ridx_main_v0 i k = ix2 k (i 1) :=
  funext fun a => Fin.ext (by match a with | ⟨0, _⟩ => rfl | ⟨1, _⟩ => rfl)

/-- The two broadcasts of the bias read the row at the column. -/
theorem idx_bias_eq (i : S4096x64.Idx) : idx_main_v2 (idx_main_v3 i) = ix1 (i 1) :=
  funext fun a => Fin.ext (by match a with | ⟨0, _⟩ => rfl)

/-- The first product of the reference is the projection. -/
theorem v0_eq_proj (x0 : (⟨S4096x64, .f32⟩ : BufTy).Contents (Elt Ideal)) (x2 : (⟨S64x64, .f32⟩ : BufTy).Contents (Elt Ideal)) :
    val_main_v0 (F := Ideal) x0 x2 = Cert.GcnSpec.proj x0 x2 := by
  funext i
  rw [val_main_v0_apply]
  unfold Cert.GcnSpec.proj
  refine Finset.sum_congr rfl fun k _ => ?_
  rw [lidx_v0_eq, ridx_v0_eq]
  rfl

/-- The reference's result is the layer `gcn` of the adjacency array, the projected features and the bias. -/
theorem ref_eq_gcn (x0 : (⟨S4096x64, .f32⟩ : BufTy).Contents (Elt Ideal)) (x1 : (⟨S4096x4096, .f32⟩ : BufTy).Contents (Elt Ideal))
    (x2 : (⟨S64x64, .f32⟩ : BufTy).Contents (Elt Ideal)) (x3 : (⟨S64, .f32⟩ : BufTy).Contents (Elt Ideal)) :
    Cert.ReferenceIdeal.Read.val_main_v4 (F := Ideal) x0 x1 x2 x3 = Cert.GcnSpec.gcn x1 (Cert.GcnSpec.proj x0 x2) x3 := by
  funext i
  refine (val_main_v4_apply x0 x1 x2 x3 i).trans ?_
  show val_main_v1 (F := Ideal) x0 x1 x2 i + val_main_v3 (F := Ideal) x3 i = _
  rw [val_main_v1_apply, val_main_v3_apply, val_main_v2_apply, v0_eq_proj, idx_bias_eq]
  unfold Cert.GcnSpec.gcn
  refine congrArg (· + x3 (ix1 (i 1))) (Finset.sum_congr rfl fun k _ => ?_)
  rw [lidx_v1_eq, ridx_v1_eq]
  rfl

end Cert.ReferenceIdeal.RefValue

end
-- ==== Proof.lean ====
/-
  The certificate of a fused graph-convolution layer, a_output = adj @ (b_input @ a_weight) + a_bias, against its
  plain reference.

  The kernel walks an 8 x 8 grid of (row block, K block) points over the 4096 x 4096 adjacency matrix. At the very
  first point it stores the projection b_input @ a_weight into a scratch buffer, which every later point only reads; at
  each point it multiplies the 512 x 512 adjacency block by the 512 rows of the projection that belong to the K
  block; where the K block is 0 it stores that product plus the bias row into the output block, elsewhere it adds the
  product to what the output block holds. The output block is written back after the last K block of each row block.

  Frames. For the word-level kernel and for its idealization the body is run symbolically once per case (first point;
  K block 0 of a later row block; a later K block), the region invariant carries the scratch from point to point, and
  the launch of the pipeline gives termination, no fault, and the argument arrays unchanged. The reference is a straight
  line of host operations.

  Values, at the ideal instance, where a float is an extended real, a change of float format is the identity and both
  a matrix-unit product into a zero accumulator and a host dot_general are plain finite sums. After K block j the output
  block holds bias + the first (j + 1) * 512 terms of the sum over k of adj[row, k] * (b @ w)[k, col]; after K block 7
  that is the whole sum. The reference computes (sum over all k) + bias. The two agree because addition of extended
  reals is commutative and associative: no finiteness of the inputs is used.
-/
import proofs.«145100_g88725434401306_cont_9to1_m_133_3_alg».proof.Defs
import proofs.«145100_g88725434401306_cont_9to1_m_133_3_alg».proof.Proof.Gen.Kernel
import proofs.«145100_g88725434401306_cont_9to1_m_133_3_alg».proof.Proof.Gen.KernelIdeal
import proofs.«145100_g88725434401306_cont_9to1_m_133_3_alg».proof.Proof.Gen.ReferenceIdeal
import proofs.«145100_g88725434401306_cont_9to1_m_133_3_alg».proof.Proof.Gen.Pre_finite_inputs
import proofs.«145100_g88725434401306_cont_9to1_m_133_3_alg».proof.Proof.Gen.ReferenceIdeal.Run
import proofs.«145100_g88725434401306_cont_9to1_m_133_3_alg».proof.Proof.Gen.ReferenceIdeal.Read
import proofs.«145100_g88725434401306_cont_9to1_m_133_3_alg».proof.Proof.KBBody
import proofs.«145100_g88725434401306_cont_9to1_m_133_3_alg».proof.Proof.KIBody
import proofs.«145100_g88725434401306_cont_9to1_m_133_3_alg».proof.Proof.KIValue
import proofs.«145100_g88725434401306_cont_9to1_m_133_3_alg».proof.Proof.RefIsGcn
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_kernel : Cert.frame_Kernel := fun m ρ _ => Cert.Kernel.Body.frame m ρ

/-- So does its idealization. -/
theorem frame_ideal : Cert.frame_KernelIdeal := fun m ρ _ => Cert.KernelIdeal.Body.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance, from memories that agree on the arguments, both programs end with the result array at
    adj @ (b @ w) + bias of the arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq_gcn,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
